-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S3x256x256 : Shape := ⟨3, ![3, 256, 256]⟩
abbrev S3x256 : Shape := ⟨2, ![3, 256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn {F : FTy → Type} [FloatOps F] (main_arg0 : FVec F S50000x256 .f32) (main_arg1 : FVec F S3x256x256 .f32) (main_arg2 : FVec F S3x256 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x256x256 .f32 := Host.absf main_arg1
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg2
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  main_v13
-- ==== Kernel.lean ====
abbrev S50000x256 : Shape := ⟨2, ![50000, 256]⟩
abbrev S3x256x256 : Shape := ⟨3, ![3, 256, 256]⟩
abbrev S3x256 : Shape := ⟨2, ![3, 256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩

abbrev nBuf : Space → Nat
  | .hbm => 104
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S3x256x256, .f32⟩
  | .hbm, ⟨2, _⟩ => ⟨S3x256, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x256, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S50000x1, .f32⟩
  | .hbm, ⟨46, _⟩ => ⟨S50000x256, .f32⟩
  | .hbm, ⟨47, _⟩ => ⟨S50000x256, .f32⟩
  | .hbm, ⟨48, _⟩ => ⟨S1x256x256, .f32⟩
  | .hbm, ⟨49, _⟩ => ⟨S256x256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S50000x256, .f32⟩
  | .hbm, ⟨54, _⟩ => ⟨S50000x1, .f32⟩
  | .hbm, ⟨55, _⟩ => ⟨S50000x256, .f32⟩
  | .hbm, ⟨56, _⟩ => ⟨S50000x256, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S1x256x256, .f32⟩
  | .hbm, ⟨74, _⟩ => ⟨S256x256, .f32⟩
  | .hbm, ⟨75, _⟩ => ⟨S1x256, .f32⟩
  | .hbm, ⟨76, _⟩ => ⟨S256, .f32⟩
  | .hbm, ⟨77, _⟩ => ⟨S1x256, .f32⟩
  | .hbm, ⟨78, _⟩ => ⟨S50000x256, .f32⟩
  | .hbm, ⟨79, _⟩ => ⟨S50000x1, .f32⟩
  | .hbm, ⟨80, _⟩ => ⟨S50000x256, .f32⟩
  | .hbm, ⟨81, _⟩ => ⟨S50000x256, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x256, .f32⟩
  | .hbm, ⟨91, _⟩ => ⟨S_, .f32⟩
  | .hbm, ⟨92, _⟩ => ⟨S50000x256, .f32⟩
  | .hbm, ⟨93, _⟩ => ⟨S800000x1, .i32⟩
  | .hbm, ⟨94, _⟩ => ⟨S50000x256, .f32⟩
  | .hbm, ⟨95, _⟩ => ⟨S50000x1, .f32⟩
  | .hbm, ⟨96, _⟩ => ⟨S50000x256, .f32⟩
  | .hbm, ⟨97, _⟩ => ⟨S50000x256, .f32⟩
  | .hbm, ⟨98, _⟩ => ⟨S1x256x256, .f32⟩
  | .hbm, ⟨99, _⟩ => ⟨S256x256, .f32⟩
  | .hbm, ⟨100, _⟩ => ⟨S1x256, .f32⟩
  | .hbm, ⟨101, _⟩ => ⟨S256, .f32⟩
  | .hbm, ⟨102, _⟩ => ⟨S1x256, .f32⟩
  | .hbm, ⟨103, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v28) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S3x256x256 : Shape := ⟨3, ![3, 256, 256]⟩
abbrev S3x256 : Shape := ⟨2, ![3, 256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 116
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S3x256x256, .f32⟩
  | .hbm, ⟨2, _⟩ => ⟨S3x256, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x256, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S50000x1, .f32⟩
  | .hbm, ⟨46, _⟩ => ⟨S50000x256, .f32⟩
  | .hbm, ⟨47, _⟩ => ⟨S50000x256, .f32⟩
  | .hbm, ⟨48, _⟩ => ⟨S1x256x256, .f32⟩
  | .hbm, ⟨49, _⟩ => ⟨S256x256, .f32⟩
  | .hbm, ⟨50, _⟩ => ⟨S50000x256, .f32⟩
  | .hbm, ⟨51, _⟩ => ⟨S1x256, .f32⟩
  | .hbm, ⟨52, _⟩ => ⟨S256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .f32⟩
  | .hbm, ⟨71, _⟩ => ⟨S_, .f32⟩
  | .hbm, ⟨72, _⟩ => ⟨S50000x256, .f32⟩
  | .hbm, ⟨73, _⟩ => ⟨S800000x1, .i32⟩
  | .hbm, ⟨74, _⟩ => ⟨S50000x256, .f32⟩
  | .hbm, ⟨75, _⟩ => ⟨S50000x1, .f32⟩
  | .hbm, ⟨76, _⟩ => ⟨S50000x256, .f32⟩
  | .hbm, ⟨77, _⟩ => ⟨S50000x256, .f32⟩
  | .hbm, ⟨78, _⟩ => ⟨S1x256x256, .f32⟩
  | .hbm, ⟨79, _⟩ => ⟨S256x256, .f32⟩
  | .hbm, ⟨80, _⟩ => ⟨S50000x256, .f32⟩
  | .hbm, ⟨81, _⟩ => ⟨S1x256, .f32⟩
  | .hbm, ⟨82, _⟩ => ⟨S256, .f32⟩
  | .hbm, ⟨83, _⟩ => ⟨S1x256, .f32⟩
  | .hbm, ⟨84, _⟩ => ⟨S50000x256, .f32⟩
  | .hbm, ⟨85, _⟩ => ⟨S50000x256, .f32⟩
  | .hbm, ⟨86, _⟩ => ⟨S_, .f32⟩
  | .hbm, ⟨87, _⟩ => ⟨S50000x256, .f32⟩
  | .hbm, ⟨88, _⟩ => ⟨S50000x256, .f32⟩
  | .hbm, ⟨89, _⟩ => ⟨S50000x1, .f32⟩
  | .hbm, ⟨90, _⟩ => ⟨S50000x256, .f32⟩
  | .hbm, ⟨91, _⟩ => ⟨S50000x256, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x256, .f32⟩
  | .hbm, ⟨101, _⟩ => ⟨S_, .f32⟩
  | .hbm, ⟨102, _⟩ => ⟨S50000x256, .f32⟩
  | .hbm, ⟨103, _⟩ => ⟨S800000x1, .i32⟩
  | .hbm, ⟨104, _⟩ => ⟨S50000x256, .f32⟩
  | .hbm, ⟨105, _⟩ => ⟨S50000x1, .f32⟩
  | .hbm, ⟨106, _⟩ => ⟨S50000x256, .f32⟩
  | .hbm, ⟨107, _⟩ => ⟨S50000x256, .f32⟩
  | .hbm, ⟨108, _⟩ => ⟨S1x256x256, .f32⟩
  | .hbm, ⟨109, _⟩ => ⟨S256x256, .f32⟩
  | .hbm, ⟨110, _⟩ => ⟨S50000x256, .f32⟩
  | .hbm, ⟨111, _⟩ => ⟨S1x256, .f32⟩
  | .hbm, ⟨112, _⟩ => ⟨S256, .f32⟩
  | .hbm, ⟨113, _⟩ => ⟨S1x256, .f32⟩
  | .hbm, ⟨114, _⟩ => ⟨S50000x256, .f32⟩
  | .hbm, ⟨115, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call2_cst : Ref sig .tc := ⟨.hbm, 56, rfl⟩
abbrev main_call2_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call3_cst : Ref sig .tc := ⟨.hbm, 86, rfl⟩
abbrev main_call3_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The idealised kernel program's run, with its result named.

  The program is three kernel regions among stretches of host operations. Its frame run ends with every unscoped
  buffer at the contents the last boundary's fold gives it; read at the result buffer, that is the statement below:
  the result ends at the last fold's value there, and the five argument arrays end as launched.
-/
import proofs.«181980_j87351044866337_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c)⟩)

end Cert.KernelIdeal.KRun

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«181980_j87351044866337_2_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibStackedProd.lean ====
/-
  GENERAL LEMMAS: matrix products over the extended reals, by rows and by stacked blocks.

  `rowsAt f X` is the array whose row `r` is row `f r` of `X`, and `rowBlock r o h W` is rows `o … o + r − 1` of `W`.
  A product's rows are the products of the left operand's rows (`matProd_rowsAt`): this is what turns a product of a
  block of rows into the block of the product of all rows. A sum over `a + b` indices is the sum over the first `a`
  plus the sum over the last `b` (`sum_split`, in any commutative monoid); so a product whose left operand is two or
  three arrays of `K` columns laid side by side is the sum of the pieces' products with the right operand's row blocks
  (`matProd_join2`, `matProd_join3`), the joined array being given by its column ranges. Nothing here needs a
  finiteness hypothesis: only commutativity and associativity of addition are used.
-/
import Idealize.ShloMosaic.PureOps.Ideal.Laws
import Idealize.ShloMosaic.Lib.ValueIdx
import proofs.«181980_j87351044866337_2_alg».proof.Proof.LibMatProd

noncomputable section

open scoped BigOperators

namespace Cert.Linear

open Idealize.ShloMosaic Idealize.ShloMosaic.ValueIdx

/-- The shape of a vector of length `a`. -/
abbrev Vc (a : Nat) : Shape := ⟨1, ![a]⟩

/-! ## Rows re-indexed -/

/-- The array whose row `r` is row `f r` of `X`. -/
def rowsAt {n N C : Nat} (f : Fin n → Fin N) (X : (Mat N C).Idx → EReal) : (Mat n C).Idx → EReal :=
  fun i => X (ix2 (f (i 0)) (i 1))

/-- Rows `o, o+1, …` of a matrix, as a matrix of `r` rows. -/
def rowBlock {R C : Nat} (r o : Nat) (h : o + r ≤ R) (W : (Mat R C).Idx → EReal) : (Mat r C).Idx → EReal :=
  fun i => W (ix2 ⟨o + (i 0).val, Nat.lt_of_lt_of_le (Nat.add_lt_add_left (idx2_lt0 i) o) h⟩ (i 1))

/-- A product's rows are the products of the left operand's rows. -/
theorem matProd_rowsAt {n N K C : Nat} (f : Fin n → Fin N) (X : (Mat N K).Idx → EReal) (W : (Mat K C).Idx → EReal) :
    matProd (rowsAt f X) W = rowsAt f (matProd X W) := rfl

/-! ## A product with stacked row blocks is the sum of the blocks' products -/

/-- A sum over `a + b` indices is the sum over the first `a` plus the sum over the last `b`. -/
theorem sum_split {M : Type} [AddCommMonoid M] (a b c : Nat) (h : a + b = c) (f : Fin c → M) :
    ∑ k : Fin c, f k = ∑ k : Fin a, f ⟨k.val, by omega⟩ + ∑ k : Fin b, f ⟨a + k.val, by omega⟩ := by
  subst h
  rw [Fin.sum_univ_add]
  rfl

/-- Two arrays of `K` columns side by side against a matrix of `T = K + K` rows: the left array against the top rows
    plus the right array against the bottom rows. The joined array is given by its two column ranges. -/
theorem matProd_join2 {R K T N : Nat} (hT : K + K = T) (A B : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k)) (p : (Mat R N).Idx) :
    matProd J W p = matProd A (rowBlock K 0 (by omega) W) p + matProd B (rowBlock K K (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + ∑ k : Fin K, B (ix2 r k) * W (ix2 ⟨K + k.val, by omega⟩ q)
  refine (sum_split K K T hT _).trans (congrArg₂ (· + ·) (Finset.sum_congr rfl fun k _ => ?_) (Finset.sum_congr rfl fun k _ => ?_))
  · exact congrArg₂ (· * ·) (hA r k) (congrArg (fun z => W (ix2 z q)) (Fin.ext (Nat.zero_add _).symm))
  · exact congrArg (· * _) (hB r k)

/-- Three arrays of `K` columns side by side against a matrix of `T = K + K + K` rows. -/
theorem matProd_join3 {R K T N : Nat} (hT : K + K + K = T) (A B C : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k))
    (hC : ∀ (r : Fin R) (k : Fin K), J (ix2 r ⟨K + K + k.val, by omega⟩) = C (ix2 r k)) (p : (Mat R N).Idx) :
    matProd J W p = matProd A (rowBlock K 0 (by omega) W) p + matProd B (rowBlock K K (by omega) W) p
      + matProd C (rowBlock K (K + K) (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + (∑ k : Fin K, B (ix2 r k) * W (ix2 ⟨K + k.val, by omega⟩ q))
        + ∑ k : Fin K, C (ix2 r k) * W (ix2 ⟨K + K + k.val, by omega⟩ q)
  refine (sum_split (K + K) K T hT _).trans (congrArg₂ (· + ·) ?_ (Finset.sum_congr rfl fun k _ => ?_))
  · refine (sum_split K K (K + K) rfl _).trans (congrArg₂ (· + ·) (Finset.sum_congr rfl fun k _ => ?_) (Finset.sum_congr rfl fun k _ => ?_))
    · exact congrArg₂ (· * ·) (hA r k) (congrArg (fun z => W (ix2 z q)) (Fin.ext (Nat.zero_add _).symm))
    · exact congrArg (· * _) (hB r k)
  · exact congrArg (· * _) (hC r k)

end Cert.Linear

end
-- ==== Proof.LibRowLayout.lean ====
/-
  GENERAL LEMMAS: layout operations read as whole-array equalities over the extended reals.

  A cut of `r` rows out of a matrix is the row block (`slice_rows`). A vector laid as one row and repeated over all rows
  — spelled by a kernel as a shape cast `[b] → [1, b]` then a broadcast `[1, b] → [a, b]` (`biasRows`), by the host as
  two broadcasts (`biasRowsHost`) — holds at `(r, k)` the vector's entry `k`. A `[1, a, b]` array read as `[a, b]` holds
  at `(i, j)` the entry `(0, i, j)` (`shapeCast_dropUnit`). A change of float format is the identity on the extended
  reals (`truncf_id`); the float word `0x3F800000` denotes 1 (`one_word`), and one over one plus the exponential of the
  negation, with the ones written as that word, is the logistic function at every extended real, the infinities
  included (`logistic_words`).
-/
import proofs.«181980_j87351044866337_2_alg».proof.Proof.LibStackedProd
import Idealize.ShloMosaic.Lib.Pipeline.Value
import Idealize.ShloMosaic.Lib.ValueLayout
import Idealize.ShloMosaic.PureOps.IdealRules

noncomputable section

namespace Cert.Linear

open Idealize.ShloMosaic Idealize.ShloMosaic.ValueIdx

/-- Rows `o … o + r − 1` cut out of a matrix. -/
theorem slice_rows {R C r : Nat} (o : Nat) (W : (Mat R C).Idx → EReal) (h : (Mat R C).Slices ![o, 0] (Mat r C)) (hb : o + r ≤ R) :
    extractStridedSlice (Mat r C) ![o, 0] W h = rowBlock r o hb W := by
  funext i
  obtain ⟨a, b, rfl⟩ : ∃ (a : Fin r) (b : Fin C), i = ix2 a b := ⟨i 0, i 1, eq_ix2 i⟩
  exact slice2_axis0_eq o W h a b

/-- The kernel's spelling of a bias row over all rows. -/
theorem biasRows {a b : Nat} (v : (Vc b).Idx → EReal) (h1 : (Vc b).ShapeCasts (Mat 1 b)) (h2 : (Mat 1 b).Broadcasts (Mat a b)) :
    broadcastTo (Mat a b) (shapeCast (Mat 1 b) v h1) h2 = fun p => v (ix1 (p 1)) := by
  funext p
  obtain ⟨r, k, rfl⟩ : ∃ (r : Fin a) (k : Fin b), p = ix2 r k := ⟨p 0, p 1, eq_ix2 p⟩
  exact (broadcastTo_1b_ab_apply _ h2 r k).trans (shapeCast_a_1a_apply v h1 0 k)

/-- The host's spelling of a bias row over all rows. -/
theorem biasRowsHost {a b : Nat} (v : (Vc b).Idx → EReal) (h1 : (Vc b).BroadcastsInDim (Mat 1 b) ![1])
    (h2 : (Mat 1 b).BroadcastsInDim (Mat a b) ![0, 1]) :
    broadcastInDim (Mat a b) ![0, 1] h2 (broadcastInDim (Mat 1 b) ![1] h1 v) = fun p => v (ix1 (p 1)) := by
  funext p
  obtain ⟨r, k, rfl⟩ : ∃ (r : Fin a) (k : Fin b), p = ix2 r k := ⟨p 0, p 1, eq_ix2 p⟩
  have hk : k.val < b := k.isLt
  exact (broadcastInDim_apply _ h2 _ (ix2 r k) (ix2 (0 : Fin 1) k) (fun ax => by
      match ax with
      | ⟨0, _⟩ => rfl
      | ⟨1, _⟩ => show k.val = if b = 1 then 0 else k.val; split <;> omega)).trans
    (broadcastInDim_apply _ h1 v (ix2 (0 : Fin 1) k) (ix1 k) (fun ax => by
      match ax with
      | ⟨0, _⟩ => show k.val = if b = 1 then 0 else k.val; split <;> omega))

/-- A `[1, a, b]` array with its unit axis dropped. -/
def dropUnit {a b : Nat} (x : (⟨3, ![1, a, b]⟩ : Shape).Idx → EReal) : (Mat a b).Idx → EReal :=
  fun i => x (ix3 (0 : Fin 1) (i 0) (i 1))

theorem shapeCast_dropUnit {a b : Nat} (x : (⟨3, ![1, a, b]⟩ : Shape).Idx → EReal)
    (h : (⟨3, ![1, a, b]⟩ : Shape).ShapeCasts (Mat a b)) : shapeCast (Mat a b) x h = dropUnit x := by
  funext i
  obtain ⟨r, k, rfl⟩ : ∃ (r : Fin a) (k : Fin b), i = ix2 r k := ⟨i 0, i 1, eq_ix2 i⟩
  exact shapeCast_1ab_ab_apply x h r k

/-- A change of float format is the identity on the extended reals. -/
theorem truncf_id {s : Shape} {φ ψ : FTy} (x : FVec Ideal s φ) (h : ψ.bits < φ.bits) : truncf ψ x h = x := rfl

/-- The float word of one denotes 1. -/
theorem one_word : Ideal.ofBits .f32 0x3F800000#32 = 1 := by simp [Ideal.ofBits, Ideal.ieee, -EReal.coe_mul]; norm_num

/-- The logistic function as the host spells it: one over one plus the exponential of the negation, the ones written
    as float words. -/
theorem logistic_words (x : EReal) :
    Ideal.div (Ideal.ofBits .f32 0x3F800000#32) (Ideal.ofBits .f32 0x3F800000#32 + Ideal.exp (-x)) = Ideal.logistic x := by
  rw [one_word]; rfl

end Cert.Linear

end
-- ==== Proof.Spec.lean ====
/-
  The graph network's layers as whole-array functions, shared by the two programs.

  A node's degree normalisation is (max(1, deg))^(-1/2), the degree a scatter-add of ones over the edge list.
  One aggregation scales the node rows by the source-side normalisation, gathers the row of each edge's
  source node (a negative index wrapped by the node count), scatter-adds the gathered rows at the edge's destination
  node, and scales by the destination-side normalisation. One dense layer is a matrix product with a slice of the
  weight stack, a bias row added to every row, and for the first two layers a maximum with zero.
  The whole network is three aggregations, each followed by a dense layer.
-/
import proofs.«181980_j87351044866337_2_alg».proof.Proof.Gen.KernelIdeal
import proofs.«181980_j87351044866337_2_alg».proof.Proof.Gen.ReferenceIdeal

noncomputable section

namespace Cert.Gcn

open Idealize.ShloMosaic Idealize.ShloMosaic.TcCoe

variable {F : FTy → Type} [FloatOps F]

section Glue
open Cert.KernelIdeal

/-- (max(1, deg))^(-1/2) per node, deg the number of edges whose listed end is the node. -/
def degNorm (idx : IVec S800000 32) : FVec F S50000 .f32 :=
  Host.powf
    (maximumf (broadcastInDim S50000 ![] (by decide) (id (constant (F := F) S_ .f32 0x3F800000#32)))
      (Host.scatterAdd scatter_S50000_S800000x1_S800000_n_0_0_1
        (broadcastInDim S50000 ![] (by decide) (constant (F := F) S_ .f32 0x00000000#32))
        (broadcastInDim S800000x1 ![0] (by decide) idx)
        (broadcastInDim S800000 ![] (by decide) (constant (F := F) S_ .f32 0x3F800000#32))))
    (broadcastInDim S50000 ![] (by decide) (constant (F := F) S_ .f32 0xBF000000#32))

/-- One normalised aggregation over the edge list. -/
def aggregate (h : FVec F S50000x256 .f32) (src dst : IVec S800000 32) (on inn : FVec F S50000 .f32) :
    FVec F S50000x256 .f32 :=
  mulf
    (Host.scatterAdd scatter_S50000x256_S800000x1_S800000x256_1_0_0_1
      (broadcastInDim S50000x256 ![] (by decide) (constant (F := F) S_ .f32 0x00000000#32))
      (broadcastInDim S800000x1 ![0] (by decide) dst)
      (Host.gather gather_S50000x256_S800000x1_S800000x256_1_0_n_n_0_1_1256
        (mulf h (broadcastInDim S50000x256 ![0, 1] (by decide) (broadcastInDim S50000x1 ![0] (by decide) on)))
        (broadcastInDim S800000x1 ![0] (by decide)
          (select (cmpi .slt src (broadcastInDim S800000 ![] (by decide) (constantI S_ 32 0#32)))
            (addi src (broadcastInDim S800000 ![] (by decide) (constantI S_ 32 50000#32))) src))))
    (broadcastInDim S50000x256 ![0, 1] (by decide) (broadcastInDim S50000x1 ![0] (by decide) inn))

/-- Layer `k`'s weight matrix: slice `k` of the stack, its unit axis dropped. -/
def weight (k : Nat) (hk : S3x256x256.Slices ![k, 0, 0] S1x256x256) (W : FVec F S3x256x256 .f32) : FVec F S256x256 .f32 :=
  shapeCast S256x256 (extractStridedSlice S1x256x256 ![k, 0, 0] W hk) (by decide)

/-- Layer `k`'s bias vector: row `k` of the bias stack. -/
def biasVec (k : Nat) (hk : S3x256.Slices ![k, 0] S1x256) (b : FVec F S3x256 .f32) : FVec F S256 .f32 :=
  shapeCast S256 (extractStridedSlice S1x256 ![k, 0] b hk) (by decide)

end Glue

section Dense
open Cert.ReferenceIdeal

/-- The affine part of a dense layer: rows times the weight matrix, plus the bias on every row. -/
def affine (h : FVec F S50000x256 .f32) (w : FVec F S256x256 .f32) (bv : FVec F S256 .f32) : FVec F S50000x256 .f32 :=
  addf (Host.dotGeneral dot_S50000x256_S256x256_S50000x256_1_0_0_1_n_n none h w)
    (broadcastInDim S50000x256 ![0, 1] (by decide) (broadcastInDim S1x256 ![1] (by decide) bv))

/-- A dense layer followed by a maximum with zero. -/
def denseRelu (h : FVec F S50000x256 .f32) (w : FVec F S256x256 .f32) (bv : FVec F S256 .f32) : FVec F S50000x256 .f32 :=
  maximumf (affine h w bv) (broadcastInDim S50000x256 ![] (by decide) (constant (F := F) S_ .f32 0x00000000#32))

end Dense

/-- The whole network: three aggregations, each followed by a dense layer, the last without the maximum. -/
def model (x : FVec F Cert.KernelIdeal.S50000x256 .f32) (W : FVec F Cert.KernelIdeal.S3x256x256 .f32)
    (b : FVec F Cert.KernelIdeal.S3x256 .f32) (src dst : IVec Cert.KernelIdeal.S800000 32) :
    FVec F Cert.KernelIdeal.S50000x256 .f32 :=
  let on : FVec F Cert.KernelIdeal.S50000 .f32 := degNorm src
  let inn : FVec F Cert.KernelIdeal.S50000 .f32 := degNorm dst
  let h1 := denseRelu (aggregate x src dst on inn) (weight 0 (by decide) W) (biasVec 0 (by decide) b)
  let h2 := denseRelu (aggregate h1 src dst on inn) (weight 1 (by decide) W) (biasVec 1 (by decide) b)
  affine (aggregate h2 src dst on inn) (weight 2 (by decide) W) (biasVec 2 (by decide) b)

end Cert.Gcn

end
-- ==== Proof.KLayer.lean ====
/-
  One dense layer, read index by index at the ideal values.

  At row `r` and column `q` a dense layer holds the sum over `k` of `h (r, k) · w (k, q)`, plus the bias entry `q`,
  and for the first two layers the maximum of that with zero (`affineFn`, `reluFn`).
  The kernel computes it block by block: a block of rows, its two operands brought to a narrower float format (the
  identity on the extended reals), multiplied by the matrix unit into a zero accumulator, the bias row broadcast over the
  block's rows and added (`blockAffine`). The reference computes it on whole arrays with the host's matrix product
  and the bias vector laid as a row and repeated (`affine_eq`). Both are the same sums of the same products,
  so no finiteness of the entries is needed.
-/
import proofs.«181980_j87351044866337_2_alg».proof.Proof.Gen.KernelIdeal.Skeleton
import proofs.«181980_j87351044866337_2_alg».proof.Proof.LibDotLists
import proofs.«181980_j87351044866337_2_alg».proof.Proof.LibRowLayout
import proofs.«181980_j87351044866337_2_alg».proof.Proof.Spec
import Idealize.ShloMosaic.Lib.Pipeline.Value
import Idealize.ShloMosaic.Lib.ValueLayout

noncomputable section

namespace Cert.Gcn

open Idealize.ShloMosaic Idealize.ShloMosaic.ValueIdx Cert.Linear

/-- The float word of zero, as an extended real. -/
abbrev zeroW : EReal := Ideal.ofBits .f32 0x00000000#32

/-- Rows times a weight matrix plus a bias row, entry by entry, for any number of rows. -/
def affineFn {R : Nat} (h : (Mat R 256).Idx → EReal) (w : (Mat 256 256).Idx → EReal) (b2 : (Mat 1 256).Idx → EReal) :
    (Mat R 256).Idx → EReal :=
  fun i => matProd h w i + b2 (ix2 (n0 := 1) (n1 := 256) 0 (i 1))

/-- The maximum with zero, entry by entry. -/
def reluFn {R : Nat} (y : (Mat R 256).Idx → EReal) : (Mat R 256).Idx → EReal := fun i => max (y i) zeroW

/-- The kernel's affine part on a block of rows: the matrix unit's product into a zero accumulator plus the bias row
    broadcast over the rows. -/
theorem blockAffine {R : Nat} {φ₁ φ₂ : FTy} (d : DotDims (Mat R 256) (Mat 256 256) (Mat R 256)) (hd : Contracts d)
    (x0 : FVec Ideal (Mat R 256) φ₁) (x1 : FVec Ideal (Mat 256 256) φ₂) (x2 : FVec Ideal (Mat 1 256) .f32)
    (hb : (Mat 1 256).Broadcasts (Mat R 256)) :
    addf (FloatOps.matmul d none x0 x1 (constant (F := Ideal) (Mat R 256) .f32 0x00000000#32)) (broadcastTo (Mat R 256) x2 hb)
      = affineFn x0 x1 x2 := by
  funext y
  obtain ⟨p, q, rfl⟩ : ∃ (p : Fin R) (q : Fin 256), y = ix2 p q := ⟨y 0, y 1, eq_ix2 y⟩
  rw [addf_apply, matmul_zero_eq hd none x0 x1, broadcastTo_1b_ab_apply x2 hb p q]
  rfl

/-- A block's dense layer at a point of the block is the whole array's dense layer at the matching point of the
    array: the block's row is the array's row, the weight matrix and the bias row are the same, and the column is the
    same. -/
theorem block_point {R : Nat} (H : (Mat 50000 256).Idx → EReal) (Wm : (Mat 256 256).Idx → EReal) (B2 : (Mat 1 256).Idx → EReal)
    (b0 : (Mat R 256).Idx → EReal) (b1 : (Mat 256 256).Idx → EReal) (b2 : (Mat 1 256).Idx → EReal)
    (y : (Mat R 256).Idx) (i : (Mat 50000 256).Idx)
    (h0 : ∀ k : Fin 256, b0 (ix2 (n0 := R) (n1 := 256) (y 0) k) = H (ix2 (n0 := 50000) (n1 := 256) (i 0) k))
    (h1 : b1 = Wm) (h2 : b2 = B2) (hq : (y 1).val = (i 1).val) :
    affineFn b0 b1 b2 y = affineFn H Wm B2 i := by
  subst h1 h2
  have hq' : (y 1 : Fin 256) = (i 1 : Fin 256) := Fin.ext hq
  unfold affineFn matProd
  rw [hq']
  exact congrArg (· + b2 (ix2 (n0 := 1) (n1 := 256) 0 (i 1))) (Finset.sum_congr rfl fun k _ => by rw [h0 k])

/-- The same with the maximum with zero on both sides. -/
theorem block_point_relu {R : Nat} (H : (Mat 50000 256).Idx → EReal) (Wm : (Mat 256 256).Idx → EReal) (B2 : (Mat 1 256).Idx → EReal)
    (b0 : (Mat R 256).Idx → EReal) (b1 : (Mat 256 256).Idx → EReal) (b2 : (Mat 1 256).Idx → EReal)
    (y : (Mat R 256).Idx) (i : (Mat 50000 256).Idx)
    (h0 : ∀ k : Fin 256, b0 (ix2 (n0 := R) (n1 := 256) (y 0) k) = H (ix2 (n0 := 50000) (n1 := 256) (i 0) k))
    (h1 : b1 = Wm) (h2 : b2 = B2) (hq : (y 1).val = (i 1).val) :
    reluFn (affineFn b0 b1 b2) y = reluFn (affineFn H Wm B2) i :=
  congrArg (fun z => max z zeroW) (block_point H Wm B2 b0 b1 b2 y i h0 h1 h2 hq)

end Cert.Gcn

end
-- ==== Proof.KRegion.lean ====
/-
  The three kernel regions' values: each region's output array is one dense layer of the arrays it finds.

  A region runs the kernel body once per block of 2000 rows. At a point the body leaves, in the output window's
  buffer, the dense layer of the block of input rows, the whole weight matrix and the bias row; the point writes that
  back as its block of the output array. An input block's row `p` is the array's row `2000 · t + p`, so what point `t`
  writes is block `t` of the dense layer of the WHOLE input array; the 25 blocks cover the 50000 rows, hence the
  output array ends holding that layer everywhere.
-/
import proofs.«181980_j87351044866337_2_alg».proof.Proof.Gen.KernelIdeal.Frame
import proofs.«181980_j87351044866337_2_alg».proof.Proof.KLayer

set_option maxRecDepth 16384

noncomputable section

namespace Cert.KernelIdeal.KRegion

open Cert.KernelIdeal Cert.KernelIdeal.Gen Cert.Gcn Cert.Linear
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The kernel's matrix-unit record contracts the block's columns with the weight matrix's rows. -/
theorem dotContracts : Contracts (R := 2000) (K := 256) (N := 256) dot_S2000x256_S256x256_S2000x256_1_0_0_1_n_n :=
  contracts_of_lists _ rfl rfl rfl rfl rfl rfl

/-! ## Region 0 -/

/-- The printed index maps of region 0's windows, decided over the grid: the row blocks of the input and of the
    output move together, one block of 2000 rows per point, and the weight matrix and the bias row stay put. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the body leaves in the output block: the dense layer of the three input blocks. -/
theorem out0_eq (x0 : Vec Ideal S2000x256 .f32) (x1 : Vec Ideal S256x256 .f32) (x2 : Vec Ideal S1x256 .f32) :
    out0_3 (F := Ideal) x0 x1 x2 = reluFn (affineFn x0 x1 x2) := by
  unfold out0_3
  rw [View.canon_unit_zero hz]
  simp only [View.ld_unit_zero (S := S2000x256) hz, View.ld_unit_zero (S := S256x256) hz, View.ld_unit_zero (S := S1x256) hz]
  unfold k0_pay1
  simp only [shapeCast_self]
  funext y
  exact congrArg (fun z => max z zeroW) (congrFun (blockAffine (R := 2000) dot_S2000x256_S256x256_S2000x256_1_0_0_1_n_n dotContracts
    (truncf .bf16 x0 bitsLt_bf16_f32) (truncf .bf16 x1 bitsLt_bf16_f32) x2 broadcasts_S1x256_S2000x256) y)

/-- What point `t` writes back is block `t` of the dense layer of the three arrays the region finds. -/
theorem flushed0 (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (reluFn (affineFn (V c main_v28) (V c main_v30) (V c main_v33))) := by
  show (cfg0.win 3).cut (grid0.coords t) ((dat0 V c).after 3 t) = _
  rw [after0_3, out0_eq]
  obtain ⟨e00, e01, e10, e11, e20, e21, e30, e31⟩ := idx_facts0 t
  funext y
  refine block_point_relu (R := 2000) (V c main_v28) (V c main_v30) (V c main_v33) _ _ _ y (((cfg0.win 3).blk t).view.emb y) (fun k => ?_) ?_ ?_ ?_
  · show V c main_v28 (((cfg0.win 0).blk t).view.emb (ix2 (y 0) k)) = V c main_v28 (ix2 ((((cfg0.win 3).blk t).view.emb y) 0) k)
    refine congrArg (V c main_v28) (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 256 + 1 * k.val = k.val; omega
  · funext z
    show V c main_v30 (((cfg0.win 1).blk t).view.emb z) = V c main_v30 z
    refine congrArg (V c main_v30) (funext fun a => Fin.ext ?_)
    match a with
    | ⟨0, _⟩ => show win0_1.index t (0 : Fin 2) * 256 + 1 * (z 0).val = (z 0).val; omega
    | ⟨1, _⟩ => show win0_1.index t (1 : Fin 2) * 256 + 1 * (z 1).val = (z 1).val; omega
  · funext z
    show V c main_v33 (((cfg0.win 2).blk t).view.emb z) = V c main_v33 z
    refine congrArg (V c main_v33) (funext fun a => Fin.ext ?_)
    match a with
    | ⟨0, _⟩ => show win0_2.index t (0 : Fin 2) * 1 + 1 * (z 0).val = (z 0).val; omega
    | ⟨1, _⟩ => show win0_2.index t (1 : Fin 2) * 256 + 1 * (z 1).val = (z 1).val; omega
  · show (y 1).val = win0_3.index t (1 : Fin 2) * 256 + 1 * (y 1).val; omega

/-- An index of the output array is in point `t`'s block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v34).slice (win0_3.rect t)).set ↔ _
  rw [View.set_slice_whole, Rect.mem_set_unit]
  exact Iff.rfl

/-- Every row of the output array lies in the block of the point numbered by the row's block of 2000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have ht : (i 0).val / 2000 < 25 := by omega
  refine ⟨⟨(i 0).val / 2000, ht⟩, flush0_3 _, ?_⟩
  obtain ⟨-, -, -, -, -, -, e30, e31⟩ := idx_facts0 ⟨(i 0).val / 2000, ht⟩
  rw [mem_blk0]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, ht⟩ (1 : Fin 2) * 256 ≤ (i 1).val ∧ (i 1).val < win0_3.index ⟨(i 0).val / 2000, ht⟩ (1 : Fin 2) * 256 + 256
    rw [e31]; omega

/-- The region's output array, after the region, is the dense layer of the three arrays it finds on entry. -/
theorem region0 (V : (c : Dev nD) → (b : Ref sig .tc) → Buf (Elt Ideal) ((c : Thread nD τ).loc b)) (c : Dev nD) :
    (dat0 (F := Ideal) V c).arrAt 3 cfg0.N = reluFn (affineFn (V c main_v28) (V c main_v30) (V c main_v33)) :=
  (dat0 (F := Ideal) V c).arrAt_eq_of_cover 3 _ (fun t _ => flushed0 V c t) cover0

/-! ## Region 1 -/

/-- The printed index maps of region 1's windows, decided over the grid: the row blocks of the input and of the
    output move together, one block of 2000 rows per point, and the weight matrix and the bias row stay put. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the body leaves in the output block: the dense layer of the three input blocks. -/
theorem out1_eq (x0 : Vec Ideal S2000x256 .f32) (x1 : Vec Ideal S256x256 .f32) (x2 : Vec Ideal S1x256 .f32) :
    out1_3 (F := Ideal) x0 x1 x2 = reluFn (affineFn x0 x1 x2) := by
  unfold out1_3
  rw [View.canon_unit_zero hz]
  simp only [View.ld_unit_zero (S := S2000x256) hz, View.ld_unit_zero (S := S256x256) hz, View.ld_unit_zero (S := S1x256) hz]
  unfold k1_pay1
  simp only [shapeCast_self]
  funext y
  exact congrArg (fun z => max z zeroW) (congrFun (blockAffine (R := 2000) dot_S2000x256_S256x256_S2000x256_1_0_0_1_n_n dotContracts
    (truncf .bf16 x0 bitsLt_bf16_f32) (truncf .bf16 x1 bitsLt_bf16_f32) x2 broadcasts_S1x256_S2000x256) y)

/-- What point `t` writes back is block `t` of the dense layer of the three arrays the region finds. -/
theorem flushed1 (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (reluFn (affineFn (V c main_v50) (V c main_v52) (V c main_v55))) := by
  show (cfg1.win 3).cut (grid1.coords t) ((dat1 V c).after 3 t) = _
  rw [after1_3, out1_eq]
  obtain ⟨e00, e01, e10, e11, e20, e21, e30, e31⟩ := idx_facts1 t
  funext y
  refine block_point_relu (R := 2000) (V c main_v50) (V c main_v52) (V c main_v55) _ _ _ y (((cfg1.win 3).blk t).view.emb y) (fun k => ?_) ?_ ?_ ?_
  · show V c main_v50 (((cfg1.win 0).blk t).view.emb (ix2 (y 0) k)) = V c main_v50 (ix2 ((((cfg1.win 3).blk t).view.emb y) 0) k)
    refine congrArg (V c main_v50) (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 256 + 1 * k.val = k.val; omega
  · funext z
    show V c main_v52 (((cfg1.win 1).blk t).view.emb z) = V c main_v52 z
    refine congrArg (V c main_v52) (funext fun a => Fin.ext ?_)
    match a with
    | ⟨0, _⟩ => show win1_1.index t (0 : Fin 2) * 256 + 1 * (z 0).val = (z 0).val; omega
    | ⟨1, _⟩ => show win1_1.index t (1 : Fin 2) * 256 + 1 * (z 1).val = (z 1).val; omega
  · funext z
    show V c main_v55 (((cfg1.win 2).blk t).view.emb z) = V c main_v55 z
    refine congrArg (V c main_v55) (funext fun a => Fin.ext ?_)
    match a with
    | ⟨0, _⟩ => show win1_2.index t (0 : Fin 2) * 1 + 1 * (z 0).val = (z 0).val; omega
    | ⟨1, _⟩ => show win1_2.index t (1 : Fin 2) * 256 + 1 * (z 1).val = (z 1).val; omega
  · show (y 1).val = win1_3.index t (1 : Fin 2) * 256 + 1 * (y 1).val; omega

/-- An index of the output array is in point `t`'s block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v56).slice (win1_3.rect t)).set ↔ _
  rw [View.set_slice_whole, Rect.mem_set_unit]
  exact Iff.rfl

/-- Every row of the output array lies in the block of the point numbered by the row's block of 2000. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have ht : (i 0).val / 2000 < 25 := by omega
  refine ⟨⟨(i 0).val / 2000, ht⟩, flush1_3 _, ?_⟩
  obtain ⟨-, -, -, -, -, -, e30, e31⟩ := idx_facts1 ⟨(i 0).val / 2000, ht⟩
  rw [mem_blk1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val ∧ (i 1).val < win1_3.index ⟨(i 0).val / 2000, ht⟩ (1 : Fin 2) * 256 + 256
    rw [e31]; omega

/-- The region's output array, after the region, is the dense layer of the three arrays it finds on entry. -/
theorem region1 (V : (c : Dev nD) → (b : Ref sig .tc) → Buf (Elt Ideal) ((c : Thread nD τ).loc b)) (c : Dev nD) :
    (dat1 (F := Ideal) V c).arrAt 3 cfg1.N = reluFn (affineFn (V c main_v50) (V c main_v52) (V c main_v55)) :=
  (dat1 (F := Ideal) V c).arrAt_eq_of_cover 3 _ (fun t _ => flushed1 V c t) cover1

/-! ## Region 2 -/

/-- The printed index maps of region 2's windows, decided over the grid: the row blocks of the input and of the
    output move together, one block of 2000 rows per point, and the weight matrix and the bias row stay put. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the body leaves in the output block: the dense layer of the three input blocks. -/
theorem out2_eq (x0 : Vec Ideal S2000x256 .f32) (x1 : Vec Ideal S256x256 .f32) (x2 : Vec Ideal S1x256 .f32) :
    out2_3 (F := Ideal) x0 x1 x2 = (affineFn x0 x1 x2) := by
  unfold out2_3
  rw [View.canon_unit_zero hz]
  simp only [View.ld_unit_zero (S := S2000x256) hz, View.ld_unit_zero (S := S256x256) hz, View.ld_unit_zero (S := S1x256) hz]
  unfold k2_pay1
  simp only [shapeCast_self]
  funext y
  exact (congrFun (blockAffine (R := 2000) dot_S2000x256_S256x256_S2000x256_1_0_0_1_n_n dotContracts
    (truncf .bf16 x0 bitsLt_bf16_f32) (truncf .bf16 x1 bitsLt_bf16_f32) x2 broadcasts_S1x256_S2000x256) y)

/-- What point `t` writes back is block `t` of the dense layer of the three arrays the region finds. -/
theorem flushed2 (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) ((affineFn (V c main_v72) (V c main_v74) (V c main_v77))) := by
  show (cfg2.win 3).cut (grid2.coords t) ((dat2 V c).after 3 t) = _
  rw [after2_3, out2_eq]
  obtain ⟨e00, e01, e10, e11, e20, e21, e30, e31⟩ := idx_facts2 t
  funext y
  refine block_point (R := 2000) (V c main_v72) (V c main_v74) (V c main_v77) _ _ _ y (((cfg2.win 3).blk t).view.emb y) (fun k => ?_) ?_ ?_ ?_
  · show V c main_v72 (((cfg2.win 0).blk t).view.emb (ix2 (y 0) k)) = V c main_v72 (ix2 ((((cfg2.win 3).blk t).view.emb y) 0) k)
    refine congrArg (V c main_v72) (funext fun a => Fin.ext ?_)
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 256 + 1 * k.val = k.val; omega
  · funext z
    show V c main_v74 (((cfg2.win 1).blk t).view.emb z) = V c main_v74 z
    refine congrArg (V c main_v74) (funext fun a => Fin.ext ?_)
    match a with
    | ⟨0, _⟩ => show win2_1.index t (0 : Fin 2) * 256 + 1 * (z 0).val = (z 0).val; omega
    | ⟨1, _⟩ => show win2_1.index t (1 : Fin 2) * 256 + 1 * (z 1).val = (z 1).val; omega
  · funext z
    show V c main_v77 (((cfg2.win 2).blk t).view.emb z) = V c main_v77 z
    refine congrArg (V c main_v77) (funext fun a => Fin.ext ?_)
    match a with
    | ⟨0, _⟩ => show win2_2.index t (0 : Fin 2) * 1 + 1 * (z 0).val = (z 0).val; omega
    | ⟨1, _⟩ => show win2_2.index t (1 : Fin 2) * 256 + 1 * (z 1).val = (z 1).val; omega
  · show (y 1).val = win2_3.index t (1 : Fin 2) * 256 + 1 * (y 1).val; omega

/-- An index of the output array is in point `t`'s block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v78).slice (win2_3.rect t)).set ↔ _
  rw [View.set_slice_whole, Rect.mem_set_unit]
  exact Iff.rfl

/-- Every row of the output array lies in the block of the point numbered by the row's block of 2000. -/
theorem cover2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have ht : (i 0).val / 2000 < 25 := by omega
  refine ⟨⟨(i 0).val / 2000, ht⟩, flush2_3 _, ?_⟩
  obtain ⟨-, -, -, -, -, -, e30, e31⟩ := idx_facts2 ⟨(i 0).val / 2000, ht⟩
  rw [mem_blk2]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, ht⟩ (1 : Fin 2) * 256 ≤ (i 1).val ∧ (i 1).val < win2_3.index ⟨(i 0).val / 2000, ht⟩ (1 : Fin 2) * 256 + 256
    rw [e31]; omega

/-- The region's output array, after the region, is the dense layer of the three arrays it finds on entry. -/
theorem region2 (V : (c : Dev nD) → (b : Ref sig .tc) → Buf (Elt Ideal) ((c : Thread nD τ).loc b)) (c : Dev nD) :
    (dat2 (F := Ideal) V c).arrAt 3 cfg2.N = (affineFn (V c main_v72) (V c main_v74) (V c main_v77)) :=
  (dat2 (F := Ideal) V c).arrAt_eq_of_cover 3 _ (fun t _ => flushed2 V c t) cover2

end Cert.KernelIdeal.KRegion

end
-- ==== Proof.KStretch.lean ====
/-
  The kernel program's host operations, stretch by stretch, from arbitrary buffer contents.

  Before the first kernel region the host computes the two degree normalisations, the first aggregation, and the
  first layer's weight matrix and bias row; between regions it computes the next aggregation of the previous
  region's output and the next layer's weight matrix and bias row. Each stretch is read here as the shared
  whole-array functions applied to the contents it starts from, together with the buffers it leaves alone.
-/
import proofs.«181980_j87351044866337_2_alg».proof.Proof.Gen.KernelIdeal.Launch
import proofs.«181980_j87351044866337_2_alg».proof.Proof.Spec
import Idealize.ShloMosaic.Lib.StableHlo.Run

set_option maxRecDepth 16384

noncomputable section

namespace Cert.KernelIdeal.KStretch

open Cert.KernelIdeal Cert.KernelIdeal.Gen Cert.Gcn
open Idealize.ShloMosaic Idealize.ShloMosaic.TcCoe Idealize.SL.Sem Idealize.ShloMosaic.StableHlo

variable {F : FTy → Type} [FloatOps F]

/-- The buffers after the five stretches of host operations that precede the first region. -/
abbrev pre (V : Valuation τ sig (Elt F)) : Valuation τ sig (Elt F) :=
  after hostOps0_4 (after hostOps0_3 (after hostOps0_2 (after hostOps0_1 (after hostOps0 V))))

/-- The source-side normalisation. -/
theorem pre_v9 (V : Valuation τ sig (Elt F)) :
    pre V (Proc.devRef .tc main_v9) = degNorm (V (Proc.devRef .tc main_arg3)) := by
  after_results_simp <;> (try simp only [StableHlo.TRef.toBuf, StableHlo.TRef.ofBuf, cast_eq]) <;> rfl

/-- The destination-side normalisation. -/
theorem pre_v12 (V : Valuation τ sig (Elt F)) :
    pre V (Proc.devRef .tc main_v12) = degNorm (V (Proc.devRef .tc main_arg4)) := by
  after_results_simp <;> (try simp only [StableHlo.TRef.toBuf, StableHlo.TRef.ofBuf, cast_eq]) <;> rfl

/-- The first region's input rows: the first aggregation of the node features. -/
theorem pre_v28 (V : Valuation τ sig (Elt F)) :
    pre V (Proc.devRef .tc main_v28) = aggregate (V (Proc.devRef .tc main_arg0)) (V (Proc.devRef .tc main_arg3)) (V (Proc.devRef .tc main_arg4)) (degNorm (V (Proc.devRef .tc main_arg3))) (degNorm (V (Proc.devRef .tc main_arg4))) := by
  after_results_simp <;> (try simp only [StableHlo.TRef.toBuf, StableHlo.TRef.ofBuf, cast_eq]) <;> rfl

/-- The first layer's weight matrix. -/
theorem pre_v30 (V : Valuation τ sig (Elt F)) :
    pre V (Proc.devRef .tc main_v30) = weight 0 (by decide) (V (Proc.devRef .tc main_arg1)) := by
  after_results_simp <;> (try simp only [StableHlo.TRef.toBuf, StableHlo.TRef.ofBuf, cast_eq]) <;> rfl

/-- The first layer's bias, laid as one row. -/
theorem pre_v33 (V : Valuation τ sig (Elt F)) :
    pre V (Proc.devRef .tc main_v33) = shapeCast S1x256 (biasVec 0 (by decide) (V (Proc.devRef .tc main_arg2))) (by decide) := by
  after_results_simp <;> (try simp only [StableHlo.TRef.toBuf, StableHlo.TRef.ofBuf, cast_eq]) <;> rfl

/-- An argument array is not written. -/
theorem pre_arg1 (V : Valuation τ sig (Elt F)) :
    pre V (Proc.devRef .tc main_arg1) = V (Proc.devRef .tc main_arg1) := by
  after_results_simp <;> (try simp only [StableHlo.TRef.toBuf, StableHlo.TRef.ofBuf, cast_eq]) <;> rfl

/-- An argument array is not written. -/
theorem pre_arg2 (V : Valuation τ sig (Elt F)) :
    pre V (Proc.devRef .tc main_arg2) = V (Proc.devRef .tc main_arg2) := by
  after_results_simp <;> (try simp only [StableHlo.TRef.toBuf, StableHlo.TRef.ofBuf, cast_eq]) <;> rfl

/-- An argument array is not written. -/
theorem pre_arg3 (V : Valuation τ sig (Elt F)) :
    pre V (Proc.devRef .tc main_arg3) = V (Proc.devRef .tc main_arg3) := by
  after_results_simp <;> (try simp only [StableHlo.TRef.toBuf, StableHlo.TRef.ofBuf, cast_eq]) <;> rfl

/-- An argument array is not written. -/
theorem pre_arg4 (V : Valuation τ sig (Elt F)) :
    pre V (Proc.devRef .tc main_arg4) = V (Proc.devRef .tc main_arg4) := by
  after_results_simp <;> (try simp only [StableHlo.TRef.toBuf, StableHlo.TRef.ofBuf, cast_eq]) <;> rfl

/-- The next region's input rows: the aggregation of the previous region's output. -/
theorem s1_agg (V : Valuation τ sig (Elt F)) :
    after hostOps1 V (Proc.devRef .tc main_v50) = aggregate (V (Proc.devRef .tc main_v34)) (V (Proc.devRef .tc main_arg3)) (V (Proc.devRef .tc main_arg4)) (V (Proc.devRef .tc main_v9)) (V (Proc.devRef .tc main_v12)) := by
  after_results_simp <;> (try simp only [StableHlo.TRef.toBuf, StableHlo.TRef.ofBuf, cast_eq]) <;> rfl

/-- The layer's weight matrix. -/
theorem s1_w (V : Valuation τ sig (Elt F)) :
    after hostOps1 V (Proc.devRef .tc main_v52) = weight 1 (by decide) (V (Proc.devRef .tc main_arg1)) := by
  after_results_simp <;> (try simp only [StableHlo.TRef.toBuf, StableHlo.TRef.ofBuf, cast_eq]) <;> rfl

/-- The layer's bias, laid as one row. -/
theorem s1_b (V : Valuation τ sig (Elt F)) :
    after hostOps1 V (Proc.devRef .tc main_v55) = shapeCast S1x256 (biasVec 1 (by decide) (V (Proc.devRef .tc main_arg2))) (by decide) := by
  after_results_simp <;> (try simp only [StableHlo.TRef.toBuf, StableHlo.TRef.ofBuf, cast_eq]) <;> rfl

/-- A buffer the stretch does not write. -/
theorem s1_arg1 (V : Valuation τ sig (Elt F)) :
    after hostOps1 V (Proc.devRef .tc main_arg1) = V (Proc.devRef .tc main_arg1) := by
  after_results_simp <;> (try simp only [StableHlo.TRef.toBuf, StableHlo.TRef.ofBuf, cast_eq]) <;> rfl

/-- A buffer the stretch does not write. -/
theorem s1_arg2 (V : Valuation τ sig (Elt F)) :
    after hostOps1 V (Proc.devRef .tc main_arg2) = V (Proc.devRef .tc main_arg2) := by
  after_results_simp <;> (try simp only [StableHlo.TRef.toBuf, StableHlo.TRef.ofBuf, cast_eq]) <;> rfl

/-- A buffer the stretch does not write. -/
theorem s1_arg3 (V : Valuation τ sig (Elt F)) :
    after hostOps1 V (Proc.devRef .tc main_arg3) = V (Proc.devRef .tc main_arg3) := by
  after_results_simp <;> (try simp only [StableHlo.TRef.toBuf, StableHlo.TRef.ofBuf, cast_eq]) <;> rfl

/-- A buffer the stretch does not write. -/
theorem s1_arg4 (V : Valuation τ sig (Elt F)) :
    after hostOps1 V (Proc.devRef .tc main_arg4) = V (Proc.devRef .tc main_arg4) := by
  after_results_simp <;> (try simp only [StableHlo.TRef.toBuf, StableHlo.TRef.ofBuf, cast_eq]) <;> rfl

/-- A buffer the stretch does not write. -/
theorem s1_v9 (V : Valuation τ sig (Elt F)) :
    after hostOps1 V (Proc.devRef .tc main_v9) = V (Proc.devRef .tc main_v9) := by
  after_results_simp <;> (try simp only [StableHlo.TRef.toBuf, StableHlo.TRef.ofBuf, cast_eq]) <;> rfl

/-- A buffer the stretch does not write. -/
theorem s1_v12 (V : Valuation τ sig (Elt F)) :
    after hostOps1 V (Proc.devRef .tc main_v12) = V (Proc.devRef .tc main_v12) := by
  after_results_simp <;> (try simp only [StableHlo.TRef.toBuf, StableHlo.TRef.ofBuf, cast_eq]) <;> rfl

/-- The next region's input rows: the aggregation of the previous region's output. -/
theorem s2_agg (V : Valuation τ sig (Elt F)) :
    after hostOps2 V (Proc.devRef .tc main_v72) = aggregate (V (Proc.devRef .tc main_v56)) (V (Proc.devRef .tc main_arg3)) (V (Proc.devRef .tc main_arg4)) (V (Proc.devRef .tc main_v9)) (V (Proc.devRef .tc main_v12)) := by
  after_results_simp <;> (try simp only [StableHlo.TRef.toBuf, StableHlo.TRef.ofBuf, cast_eq]) <;> rfl

/-- The layer's weight matrix. -/
theorem s2_w (V : Valuation τ sig (Elt F)) :
    after hostOps2 V (Proc.devRef .tc main_v74) = weight 2 (by decide) (V (Proc.devRef .tc main_arg1)) := by
  after_results_simp <;> (try simp only [StableHlo.TRef.toBuf, StableHlo.TRef.ofBuf, cast_eq]) <;> rfl

/-- The layer's bias, laid as one row. -/
theorem s2_b (V : Valuation τ sig (Elt F)) :
    after hostOps2 V (Proc.devRef .tc main_v77) = shapeCast S1x256 (biasVec 2 (by decide) (V (Proc.devRef .tc main_arg2))) (by decide) := by
  after_results_simp <;> (try simp only [StableHlo.TRef.toBuf, StableHlo.TRef.ofBuf, cast_eq]) <;> rfl

end Cert.KernelIdeal.KStretch

end
-- ==== Proof.RefDense.lean ====
/-
  The reference's spelling of a dense layer is the index-level dense layer.

  On whole arrays the reference writes the affine part as the host's matrix product plus the bias vector laid as a row
  and repeated over all rows, and the activation as a maximum with a zero array. Entry by entry these are the sum of
  products plus the bias entry, and its maximum with zero: the functions the kernel's blocks were read as. The bias row
  the kernel is given is the same vector laid as one row, so the two programs' layers agree on every extended real.
-/
import proofs.«181980_j87351044866337_2_alg».proof.Proof.KLayer

noncomputable section

namespace Cert.Gcn

open Idealize.ShloMosaic Idealize.ShloMosaic.ValueIdx Cert.Linear

/-- The reference's product record contracts the rows' columns with the weight matrix's rows. -/
theorem refContracts : Contracts (R := 50000) (K := 256) (N := 256)
    Cert.ReferenceIdeal.dot_S50000x256_S256x256_S50000x256_1_0_0_1_n_n :=
  contracts_of_lists _ rfl rfl rfl rfl rfl rfl

/-- The reference's affine part is the index-level one, its bias vector laid as one row. -/
theorem affine_eq (h : FVec Ideal (Mat 50000 256) .f32) (w : FVec Ideal (Mat 256 256) .f32) (bv : FVec Ideal (Vc 256) .f32)
    (hc : (Vc 256).ShapeCasts (Mat 1 256)) :
    affine (F := Ideal) h w bv = affineFn h w (shapeCast (Mat 1 256) bv hc) := by
  funext i
  obtain ⟨r, q, rfl⟩ : ∃ (r : Fin 50000) (q : Fin 256), i = ix2 r q := ⟨i 0, i 1, eq_ix2 i⟩
  unfold affine affineFn
  rw [addf_apply]
  exact congrArg₂ (· + ·) (congrFun (dotGeneral_eq refContracts none _ h w) (ix2 r q))
    ((congrFun (biasRowsHost bv _ _) (ix2 r q)).trans (shapeCast_a_1a_apply bv hc 0 q).symm)

/-- The reference's dense layer with its activation is the index-level one. -/
theorem denseRelu_eq (h : FVec Ideal (Mat 50000 256) .f32) (w : FVec Ideal (Mat 256 256) .f32) (bv : FVec Ideal (Vc 256) .f32)
    (hc : (Vc 256).ShapeCasts (Mat 1 256)) :
    denseRelu (F := Ideal) h w bv = reluFn (affineFn h w (shapeCast (Mat 1 256) bv hc)) := by
  funext i
  unfold denseRelu reluFn
  rw [maximumf_apply, affine_eq h w bv hc]
  rfl

end Cert.Gcn

end
-- ==== Proof.KValue.lean ====
/-
  The idealised kernel program's result as the shared network function of its arguments.

  The buffer contents at each boundary of the program are followed from the launch: before the first region the
  host leaves the two normalisations, the first aggregation and the first layer's weights and bias row; each region
  leaves the dense layer of what it finds; between regions the host aggregates the previous region's output and cuts
  out the next layer's weights and bias row, writing neither the arguments nor the normalisations. The last region's
  output is the result. The kernel's layers and the reference's are the same index-level layer, so the result is the
  network the reference computes.
-/
import proofs.«181980_j87351044866337_2_alg».proof.Proof.KRegion
import proofs.«181980_j87351044866337_2_alg».proof.Proof.KStretch
import proofs.«181980_j87351044866337_2_alg».proof.Proof.RefDense

set_option maxRecDepth 16384

noncomputable section

namespace Cert.KernelIdeal.KValue

open Cert.KernelIdeal Cert.KernelIdeal.Gen Cert.Gcn Cert.Linear Cert.KernelIdeal.KStretch Cert.KernelIdeal.KRegion
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-! ## Entering region 0 -/

theorem V5_v28 : V5 m ρ c main_v28 = (aggregate (F := Ideal) (m ((c : Thread nD τ).loc main_arg0)) (m ((c : Thread nD τ).loc main_arg3)) (m ((c : Thread nD τ).loc main_arg4)) (degNorm (F := Ideal) (m ((c : Thread nD τ).loc main_arg3))) (degNorm (F := Ideal) (m ((c : Thread nD τ).loc main_arg4)))) := pre_v28 (W0 m ρ c)
theorem V5_v30 : V5 m ρ c main_v30 = (weight (F := Ideal) 0 (by decide) (m ((c : Thread nD τ).loc main_arg1))) := pre_v30 (W0 m ρ c)
theorem V5_v33 : V5 m ρ c main_v33 = (shapeCast S1x256 (biasVec (F := Ideal) 0 (by decide) (m ((c : Thread nD τ).loc main_arg2))) (by decide)) := pre_v33 (W0 m ρ c)

/-! ## Leaving region 0 -/

theorem W6_v34 : W6 m ρ c (Proc.devRef .tc main_v34) = (reluFn (affineFn (aggregate (F := Ideal) (m ((c : Thread nD τ).loc main_arg0)) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 0 (by decide) (m ((c : Thread nD τ).loc main_arg1))) (shapeCast S1x256 (biasVec (F := Ideal) 0 (by decide) (m ((c : Thread nD τ).loc main_arg2))) (by decide)))) := by
  rw [show W6 m ρ c (Proc.devRef .tc main_v34) = (dat0 (V5 m ρ) c).arrAt 3 cfg0.N from W6_arr m ρ c 3, region0,
    V5_v28, V5_v30, V5_v33]
theorem W6_v9 : W6 m ρ c (Proc.devRef .tc main_v9) = (degNorm (F := Ideal) (m ((c : Thread nD τ).loc main_arg3))) := (W6_of_ne m ρ c main_v9 (by decide)).trans (pre_v9 (W0 m ρ c))
theorem W6_v12 : W6 m ρ c (Proc.devRef .tc main_v12) = (degNorm (F := Ideal) (m ((c : Thread nD τ).loc main_arg4))) := (W6_of_ne m ρ c main_v12 (by decide)).trans (pre_v12 (W0 m ρ c))
theorem W6_arg1 : W6 m ρ c (Proc.devRef .tc main_arg1) = (m ((c : Thread nD τ).loc main_arg1)) := (W6_of_ne m ρ c main_arg1 (by decide)).trans (pre_arg1 (W0 m ρ c))
theorem W6_arg2 : W6 m ρ c (Proc.devRef .tc main_arg2) = (m ((c : Thread nD τ).loc main_arg2)) := (W6_of_ne m ρ c main_arg2 (by decide)).trans (pre_arg2 (W0 m ρ c))
theorem W6_arg3 : W6 m ρ c (Proc.devRef .tc main_arg3) = (m ((c : Thread nD τ).loc main_arg3)) := (W6_of_ne m ρ c main_arg3 (by decide)).trans (pre_arg3 (W0 m ρ c))
theorem W6_arg4 : W6 m ρ c (Proc.devRef .tc main_arg4) = (m ((c : Thread nD τ).loc main_arg4)) := (W6_of_ne m ρ c main_arg4 (by decide)).trans (pre_arg4 (W0 m ρ c))

/-! ## Entering region 1 -/

theorem V7_v50 : V7 m ρ c main_v50 = (aggregate (F := Ideal) (reluFn (affineFn (aggregate (F := Ideal) (m ((c : Thread nD τ).loc main_arg0)) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 0 (by decide) (m ((c : Thread nD τ).loc main_arg1))) (shapeCast S1x256 (biasVec (F := Ideal) 0 (by decide) (m ((c : Thread nD τ).loc main_arg2))) (by decide)))) (m ((c : Thread nD τ).loc main_arg3)) (m ((c : Thread nD τ).loc main_arg4)) (degNorm (F := Ideal) (m ((c : Thread nD τ).loc main_arg3))) (degNorm (F := Ideal) (m ((c : Thread nD τ).loc main_arg4)))) := by
  rw [show V7 m ρ c main_v50 = _ from s1_agg (W6 m ρ c), W6_v34, W6_arg3, W6_arg4, W6_v9, W6_v12]
theorem V7_v52 : V7 m ρ c main_v52 = (weight (F := Ideal) 1 (by decide) (m ((c : Thread nD τ).loc main_arg1))) := by
  rw [show V7 m ρ c main_v52 = _ from s1_w (W6 m ρ c), W6_arg1]
theorem V7_v55 : V7 m ρ c main_v55 = (shapeCast S1x256 (biasVec (F := Ideal) 1 (by decide) (m ((c : Thread nD τ).loc main_arg2))) (by decide)) := by
  rw [show V7 m ρ c main_v55 = _ from s1_b (W6 m ρ c), W6_arg2]

/-! ## Leaving region 1 -/

theorem W8_v56 : W8 m ρ c (Proc.devRef .tc main_v56) = (reluFn (affineFn (aggregate (F := Ideal) (reluFn (affineFn (aggregate (F := Ideal) (m ((c : Thread nD τ).loc main_arg0)) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 0 (by decide) (m ((c : Thread nD τ).loc main_arg1))) (shapeCast S1x256 (biasVec (F := Ideal) 0 (by decide) (m ((c : Thread nD τ).loc main_arg2))) (by decide)))) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 1 (by decide) (m ((c : Thread nD τ).loc main_arg1))) (shapeCast S1x256 (biasVec (F := Ideal) 1 (by decide) (m ((c : Thread nD τ).loc main_arg2))) (by decide)))) := by
  rw [show W8 m ρ c (Proc.devRef .tc main_v56) = (dat1 (V7 m ρ) c).arrAt 3 cfg1.N from W8_arr m ρ c 3, region1,
    V7_v50, V7_v52, V7_v55]
theorem W8_v9 : W8 m ρ c (Proc.devRef .tc main_v9) = (degNorm (F := Ideal) (m ((c : Thread nD τ).loc main_arg3))) :=
  (W8_of_ne m ρ c main_v9 (by decide)).trans ((s1_v9 (W6 m ρ c)).trans (W6_v9 m ρ c))
theorem W8_v12 : W8 m ρ c (Proc.devRef .tc main_v12) = (degNorm (F := Ideal) (m ((c : Thread nD τ).loc main_arg4))) :=
  (W8_of_ne m ρ c main_v12 (by decide)).trans ((s1_v12 (W6 m ρ c)).trans (W6_v12 m ρ c))
theorem W8_arg1 : W8 m ρ c (Proc.devRef .tc main_arg1) = (m ((c : Thread nD τ).loc main_arg1)) :=
  (W8_of_ne m ρ c main_arg1 (by decide)).trans ((s1_arg1 (W6 m ρ c)).trans (W6_arg1 m ρ c))
theorem W8_arg2 : W8 m ρ c (Proc.devRef .tc main_arg2) = (m ((c : Thread nD τ).loc main_arg2)) :=
  (W8_of_ne m ρ c main_arg2 (by decide)).trans ((s1_arg2 (W6 m ρ c)).trans (W6_arg2 m ρ c))
theorem W8_arg3 : W8 m ρ c (Proc.devRef .tc main_arg3) = (m ((c : Thread nD τ).loc main_arg3)) :=
  (W8_of_ne m ρ c main_arg3 (by decide)).trans ((s1_arg3 (W6 m ρ c)).trans (W6_arg3 m ρ c))
theorem W8_arg4 : W8 m ρ c (Proc.devRef .tc main_arg4) = (m ((c : Thread nD τ).loc main_arg4)) :=
  (W8_of_ne m ρ c main_arg4 (by decide)).trans ((s1_arg4 (W6 m ρ c)).trans (W6_arg4 m ρ c))

/-! ## Entering region 2 -/

theorem V9_v72 : V9 m ρ c main_v72 = (aggregate (F := Ideal) (reluFn (affineFn (aggregate (F := Ideal) (reluFn (affineFn (aggregate (F := Ideal) (m ((c : Thread nD τ).loc main_arg0)) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 0 (by decide) (m ((c : Thread nD τ).loc main_arg1))) (shapeCast S1x256 (biasVec (F := Ideal) 0 (by decide) (m ((c : Thread nD τ).loc main_arg2))) (by decide)))) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 1 (by decide) (m ((c : Thread nD τ).loc main_arg1))) (shapeCast S1x256 (biasVec (F := Ideal) 1 (by decide) (m ((c : Thread nD τ).loc main_arg2))) (by decide)))) (m ((c : Thread nD τ).loc main_arg3)) (m ((c : Thread nD τ).loc main_arg4)) (degNorm (F := Ideal) (m ((c : Thread nD τ).loc main_arg3))) (degNorm (F := Ideal) (m ((c : Thread nD τ).loc main_arg4)))) := by
  rw [show V9 m ρ c main_v72 = _ from s2_agg (W8 m ρ c), W8_v56, W8_arg3, W8_arg4, W8_v9, W8_v12]
theorem V9_v74 : V9 m ρ c main_v74 = (weight (F := Ideal) 2 (by decide) (m ((c : Thread nD τ).loc main_arg1))) := by
  rw [show V9 m ρ c main_v74 = _ from s2_w (W8 m ρ c), W8_arg1]
theorem V9_v77 : V9 m ρ c main_v77 = (shapeCast S1x256 (biasVec (F := Ideal) 2 (by decide) (m ((c : Thread nD τ).loc main_arg2))) (by decide)) := by
  rw [show V9 m ρ c main_v77 = _ from s2_b (W8 m ρ c), W8_arg2]

/-! ## The result -/

/-- The result buffer after the last region: the third layer of the third aggregation. -/
theorem W10_v78 : W10 m ρ c (Proc.devRef .tc main_v78) = (affineFn (aggregate (F := Ideal) (reluFn (affineFn (aggregate (F := Ideal) (reluFn (affineFn (aggregate (F := Ideal) (m ((c : Thread nD τ).loc main_arg0)) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 0 (by decide) (m ((c : Thread nD τ).loc main_arg1))) (shapeCast S1x256 (biasVec (F := Ideal) 0 (by decide) (m ((c : Thread nD τ).loc main_arg2))) (by decide)))) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 1 (by decide) (m ((c : Thread nD τ).loc main_arg1))) (shapeCast S1x256 (biasVec (F := Ideal) 1 (by decide) (m ((c : Thread nD τ).loc main_arg2))) (by decide)))) (m ((c : Thread nD τ).loc main_arg3)) (m ((c : Thread nD τ).loc main_arg4)) (degNorm (F := Ideal) (m ((c : Thread nD τ).loc main_arg3))) (degNorm (F := Ideal) (m ((c : Thread nD τ).loc main_arg4)))) (weight (F := Ideal) 2 (by decide) (m ((c : Thread nD τ).loc main_arg1))) (shapeCast S1x256 (biasVec (F := Ideal) 2 (by decide) (m ((c : Thread nD τ).loc main_arg2))) (by decide))) := by
  rw [show W10 m ρ c (Proc.devRef .tc main_v78) = (dat2 (V9 m ρ) c).arrAt 3 cfg2.N from W10_arr m ρ c 3, region2,
    V9_v72, V9_v74, V9_v77]

/-- The result is the network the reference computes, applied to the argument arrays. -/
theorem result : W10 m ρ c (Proc.devRef .tc main_v78) = model (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [W10_v78]
  unfold model
  dsimp only
  rw [affine_eq _ _ _ (by decide), denseRelu_eq _ _ _ (by decide), denseRelu_eq _ _ _ (by decide)]

end Cert.KernelIdeal.KValue

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefRun.lean ====
/-
  The reference program's run, read back as a fold over its host operations.

  The reference is a straight line of 111 host operations. They are listed here in four consecutive stretches —
  the two degree normalisations, then one stretch per layer (an aggregation over the edge list followed by the dense
  layer) — whose concatenation is the program. Every weakly fair execution terminates with each buffer at the fold of
  the operations' results over the launch contents; the value of that fold at the result buffer is computed
  stretch by stretch elsewhere.
-/
import proofs.«181980_j87351044866337_2_alg».proof.Proof.Gen.ReferenceIdeal
import proofs.«181980_j87351044866337_2_alg».proof.Proof.LibAfter
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 24: the degree normalisations. -/
abbrev opsA : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg3 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg4 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v3) (TRef.of (T := ⟨S50000, .f32⟩) main_v7) maximumf,
    nullary main_cst_3 (constant S_ .f32 0xBF000000#32),
    unary main_cst_3 main_v8 (broadcastInDim S50000 ![] bcast_S_S50000 : (⟨S_, .f32⟩ : BufTy).Contents (Elt F) → (⟨S50000, .f32⟩ : BufTy).Contents (Elt F)),
    binary main_v7 main_v8 main_v9 (Host.powf : (⟨S50000, .f32⟩ : BufTy).Contents (Elt F) → (⟨S50000, .f32⟩ : BufTy).Contents (Elt F) → (⟨S50000, .f32⟩ : BufTy).Contents (Elt F)),
    nullary main_cst_4 (constant S_ .f32 0x3F800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_v6) (TRef.of (T := ⟨S50000, .f32⟩) main_v10) maximumf,
    nullary main_cst_5 (constant S_ .f32 0xBF000000#32),
    unary main_cst_5 main_v11 (broadcastInDim S50000 ![] bcast_S_S50000 : (⟨S_, .f32⟩ : BufTy).Contents (Elt F) → (⟨S50000, .f32⟩ : BufTy).Contents (Elt F)),
    binary main_v10 main_v11 main_v12 (Host.powf : (⟨S50000, .f32⟩ : BufTy).Contents (Elt F) → (⟨S50000, .f32⟩ : BufTy).Contents (Elt F) → (⟨S50000, .f32⟩ : BufTy).Contents (Elt F)) ]

set_option maxRecDepth 8192 in
theorem opsA_sub : (opsA : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub ..⟩

theorem opsA_fresh : (opsA : List (HloOp τ sig (Elt F))).Forall fun op => op.fresh = ∅ := by
  simp only [List.Forall]; repeat' constructor

/-- Operations 25 to 54: the first aggregation and dense layer. -/
abbrev opsL1 : List (HloOp τ sig (Elt F)) :=
  [ unary main_v9 main_v13 (broadcastInDim S50000x1 ![0] bcast_S50000_S50000x1_0 : (⟨S50000, .f32⟩ : BufTy).Contents (Elt F) → (⟨S50000x1, .f32⟩ : BufTy).Contents (Elt F)),
    unary main_v13 main_v14 (broadcastInDim S50000x256 ![0, 1] bcast_S50000x1_S50000x256_0_1 : (⟨S50000x1, .f32⟩ : BufTy).Contents (Elt F) → (⟨S50000x256, .f32⟩ : BufTy).Contents (Elt F)),
    binary main_arg0 main_v14 main_v15 (mulf : (⟨S50000x256, .f32⟩ : BufTy).Contents (Elt F) → (⟨S50000x256, .f32⟩ : BufTy).Contents (Elt F) → (⟨S50000x256, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_arg3 main_v16 main_v17 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v18 (broadcastInDim S800000 ![] bcast_S_S800000 : (⟨S_, .i32⟩ : BufTy).Contents (Elt F) → (⟨S800000, .i32⟩ : BufTy).Contents (Elt F)),
    binary main_arg3 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg3 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v23 (broadcastInDim S50000x256 ![] bcast_S_S50000x256 : (⟨S_, .f32⟩ : BufTy).Contents (Elt F) → (⟨S50000x256, .f32⟩ : BufTy).Contents (Elt F)),
    unary main_arg4 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x256 ![0, 1] bcast_S50000x1_S50000x256_0_1 : (⟨S50000x1, .f32⟩ : BufTy).Contents (Elt F) → (⟨S50000x256, .f32⟩ : BufTy).Contents (Elt F)),
    binary main_v25 main_v27 main_v28 (mulf : (⟨S50000x256, .f32⟩ : BufTy).Contents (Elt F) → (⟨S50000x256, .f32⟩ : BufTy).Contents (Elt F) → (⟨S50000x256, .f32⟩ : BufTy).Contents (Elt F)),
    unary main_arg1 main_v29 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v29 main_v30 rfl shapeCasts_S1x256x256_S256x256,
    binary main_v28 main_v30 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg2 main_v32 ((extractStridedSlice S1x256 ![0, 0] · slices_S3x256_S1x256_0_0) : (⟨S3x256, .f32⟩ : BufTy).Contents (Elt F) → (⟨S1x256, .f32⟩ : BufTy).Contents (Elt F)),
    reshape main_v32 main_v33 rfl shapeCasts_S1x256_S256,
    unary main_v33 main_v34 (broadcastInDim S1x256 ![1] bcast_S256_S1x256_1 : (⟨S256, .f32⟩ : BufTy).Contents (Elt F) → (⟨S1x256, .f32⟩ : BufTy).Contents (Elt F)),
    unary main_v34 main_v35 (broadcastInDim S50000x256 ![0, 1] bcast_S1x256_S50000x256_0_1 : (⟨S1x256, .f32⟩ : BufTy).Contents (Elt F) → (⟨S50000x256, .f32⟩ : BufTy).Contents (Elt F)),
    binary main_v31 main_v35 main_v36 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v36) (TRef.of (T := ⟨S50000x256, .f32⟩) main_call2_v0) (TRef.of (T := ⟨S50000x256, .f32⟩) main_v37) maximumf ]

set_option maxRecDepth 8192 in
theorem opsL1_sub : (opsL1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsL1_fresh : (opsL1 : List (HloOp τ sig (Elt F))).Forall fun op => op.fresh = ∅ := by
  simp only [List.Forall]; repeat' constructor

/-- Operations 55 to 84: the second aggregation and dense layer. -/
abbrev opsL2 : List (HloOp τ sig (Elt F)) :=
  [ unary main_v9 main_v38 (broadcastInDim S50000x1 ![0] bcast_S50000_S50000x1_0 : (⟨S50000, .f32⟩ : BufTy).Contents (Elt F) → (⟨S50000x1, .f32⟩ : BufTy).Contents (Elt F)),
    unary main_v38 main_v39 (broadcastInDim S50000x256 ![0, 1] bcast_S50000x1_S50000x256_0_1 : (⟨S50000x1, .f32⟩ : BufTy).Contents (Elt F) → (⟨S50000x256, .f32⟩ : BufTy).Contents (Elt F)),
    binary main_v37 main_v39 main_v40 (mulf : (⟨S50000x256, .f32⟩ : BufTy).Contents (Elt F) → (⟨S50000x256, .f32⟩ : BufTy).Contents (Elt F) → (⟨S50000x256, .f32⟩ : BufTy).Contents (Elt F)),
    nullary main_c_8 (constantI S_ 32 0#32),
    unary main_c_8 main_v41 (broadcastInDim S800000 ![] bcast_S_S800000 : (⟨S_, .i32⟩ : BufTy).Contents (Elt F) → (⟨S800000, .i32⟩ : BufTy).Contents (Elt F)),
    binary main_arg3 main_v41 main_v42 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v43 (broadcastInDim S800000 ![] bcast_S_S800000 : (⟨S_, .i32⟩ : BufTy).Contents (Elt F) → (⟨S800000, .i32⟩ : BufTy).Contents (Elt F)),
    binary main_arg3 main_v43 main_v44 (addi : (⟨S800000, .i32⟩ : BufTy).Contents (Elt F) → (⟨S800000, .i32⟩ : BufTy).Contents (Elt F) → (⟨S800000, .i32⟩ : BufTy).Contents (Elt F)),
    ternary main_v42 main_v44 main_arg3 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v45 main_v46 (broadcastInDim S800000x1 ![0] bcast_S800000_S800000x1_0 : (⟨S800000, .i32⟩ : BufTy).Contents (Elt F) → (⟨S800000x1, .i32⟩ : BufTy).Contents (Elt F)),
    binary main_v40 main_v46 main_v47 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_10 (constant S_ .f32 0x00000000#32),
    unary main_cst_10 main_v48 (broadcastInDim S50000x256 ![] bcast_S_S50000x256 : (⟨S_, .f32⟩ : BufTy).Contents (Elt F) → (⟨S50000x256, .f32⟩ : BufTy).Contents (Elt F)),
    unary main_arg4 main_v49 (broadcastInDim S800000x1 ![0] bcast_S800000_S800000x1_0 : (⟨S800000, .i32⟩ : BufTy).Contents (Elt F) → (⟨S800000x1, .i32⟩ : BufTy).Contents (Elt F)),
    ternary main_v48 main_v49 main_v47 main_v50 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x256 ![0, 1] bcast_S50000x1_S50000x256_0_1 : (⟨S50000x1, .f32⟩ : BufTy).Contents (Elt F) → (⟨S50000x256, .f32⟩ : BufTy).Contents (Elt F)),
    binary main_v50 main_v52 main_v53 (mulf : (⟨S50000x256, .f32⟩ : BufTy).Contents (Elt F) → (⟨S50000x256, .f32⟩ : BufTy).Contents (Elt F) → (⟨S50000x256, .f32⟩ : BufTy).Contents (Elt F)),
    unary main_arg1 main_v54 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v54 main_v55 rfl shapeCasts_S1x256x256_S256x256,
    binary main_v53 main_v55 main_v56 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg2 main_v57 ((extractStridedSlice S1x256 ![1, 0] · slices_S3x256_S1x256_1_0) : (⟨S3x256, .f32⟩ : BufTy).Contents (Elt F) → (⟨S1x256, .f32⟩ : BufTy).Contents (Elt F)),
    reshape main_v57 main_v58 rfl shapeCasts_S1x256_S256,
    unary main_v58 main_v59 (broadcastInDim S1x256 ![1] bcast_S256_S1x256_1 : (⟨S256, .f32⟩ : BufTy).Contents (Elt F) → (⟨S1x256, .f32⟩ : BufTy).Contents (Elt F)),
    unary main_v59 main_v60 (broadcastInDim S50000x256 ![0, 1] bcast_S1x256_S50000x256_0_1 : (⟨S1x256, .f32⟩ : BufTy).Contents (Elt F) → (⟨S50000x256, .f32⟩ : BufTy).Contents (Elt F)),
    binary main_v56 main_v60 main_v61 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v61) (TRef.of (T := ⟨S50000x256, .f32⟩) main_call3_v0) (TRef.of (T := ⟨S50000x256, .f32⟩) main_v62) maximumf ]

set_option maxRecDepth 8192 in
theorem opsL2_sub : (opsL2 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsL2_fresh : (opsL2 : List (HloOp τ sig (Elt F))).Forall fun op => op.fresh = ∅ := by
  simp only [List.Forall]; repeat' constructor

/-- Operations 85 to 111: the third aggregation and the last affine layer. -/
abbrev opsL3 : List (HloOp τ sig (Elt F)) :=
  [ unary main_v9 main_v63 (broadcastInDim S50000x1 ![0] bcast_S50000_S50000x1_0 : (⟨S50000, .f32⟩ : BufTy).Contents (Elt F) → (⟨S50000x1, .f32⟩ : BufTy).Contents (Elt F)),
    unary main_v63 main_v64 (broadcastInDim S50000x256 ![0, 1] bcast_S50000x1_S50000x256_0_1 : (⟨S50000x1, .f32⟩ : BufTy).Contents (Elt F) → (⟨S50000x256, .f32⟩ : BufTy).Contents (Elt F)),
    binary main_v62 main_v64 main_v65 (mulf : (⟨S50000x256, .f32⟩ : BufTy).Contents (Elt F) → (⟨S50000x256, .f32⟩ : BufTy).Contents (Elt F) → (⟨S50000x256, .f32⟩ : BufTy).Contents (Elt F)),
    nullary main_c_11 (constantI S_ 32 0#32),
    unary main_c_11 main_v66 (broadcastInDim S800000 ![] bcast_S_S800000 : (⟨S_, .i32⟩ : BufTy).Contents (Elt F) → (⟨S800000, .i32⟩ : BufTy).Contents (Elt F)),
    binary main_arg3 main_v66 main_v67 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v68 (broadcastInDim S800000 ![] bcast_S_S800000 : (⟨S_, .i32⟩ : BufTy).Contents (Elt F) → (⟨S800000, .i32⟩ : BufTy).Contents (Elt F)),
    binary main_arg3 main_v68 main_v69 (addi : (⟨S800000, .i32⟩ : BufTy).Contents (Elt F) → (⟨S800000, .i32⟩ : BufTy).Contents (Elt F) → (⟨S800000, .i32⟩ : BufTy).Contents (Elt F)),
    ternary main_v67 main_v69 main_arg3 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v70 main_v71 (broadcastInDim S800000x1 ![0] bcast_S800000_S800000x1_0 : (⟨S800000, .i32⟩ : BufTy).Contents (Elt F) → (⟨S800000x1, .i32⟩ : BufTy).Contents (Elt F)),
    binary main_v65 main_v71 main_v72 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_13 (constant S_ .f32 0x00000000#32),
    unary main_cst_13 main_v73 (broadcastInDim S50000x256 ![] bcast_S_S50000x256 : (⟨S_, .f32⟩ : BufTy).Contents (Elt F) → (⟨S50000x256, .f32⟩ : BufTy).Contents (Elt F)),
    unary main_arg4 main_v74 (broadcastInDim S800000x1 ![0] bcast_S800000_S800000x1_0 : (⟨S800000, .i32⟩ : BufTy).Contents (Elt F) → (⟨S800000x1, .i32⟩ : BufTy).Contents (Elt F)),
    ternary main_v73 main_v74 main_v72 main_v75 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v12 main_v76 (broadcastInDim S50000x1 ![0] bcast_S50000_S50000x1_0 : (⟨S50000, .f32⟩ : BufTy).Contents (Elt F) → (⟨S50000x1, .f32⟩ : BufTy).Contents (Elt F)),
    unary main_v76 main_v77 (broadcastInDim S50000x256 ![0, 1] bcast_S50000x1_S50000x256_0_1 : (⟨S50000x1, .f32⟩ : BufTy).Contents (Elt F) → (⟨S50000x256, .f32⟩ : BufTy).Contents (Elt F)),
    binary main_v75 main_v77 main_v78 (mulf : (⟨S50000x256, .f32⟩ : BufTy).Contents (Elt F) → (⟨S50000x256, .f32⟩ : BufTy).Contents (Elt F) → (⟨S50000x256, .f32⟩ : BufTy).Contents (Elt F)),
    unary main_arg1 main_v79 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v79 main_v80 rfl shapeCasts_S1x256x256_S256x256,
    binary main_v78 main_v80 main_v81 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg2 main_v82 ((extractStridedSlice S1x256 ![2, 0] · slices_S3x256_S1x256_2_0) : (⟨S3x256, .f32⟩ : BufTy).Contents (Elt F) → (⟨S1x256, .f32⟩ : BufTy).Contents (Elt F)),
    reshape main_v82 main_v83 rfl shapeCasts_S1x256_S256,
    unary main_v83 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v81 main_v85 main_v86 (addf : (⟨S50000x256, .f32⟩ : BufTy).Contents (Elt F) → (⟨S50000x256, .f32⟩ : BufTy).Contents (Elt F) → (⟨S50000x256, .f32⟩ : BufTy).Contents (Elt F)) ]

set_option maxRecDepth 8192 in
theorem opsL3_sub : (opsL3 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

theorem opsL3_fresh : (opsL3 : List (HloOp τ sig (Elt F))).Forall fun op => op.fresh = ∅ := by
  simp only [List.Forall]; repeat' constructor

/-- The whole program: the four stretches in order. -/
abbrev ops : List (HloOp τ sig (Elt F)) := opsA ++ (opsL1 ++ (opsL2 ++ opsL3))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  Cert.LibAfter.Forall.append opsA_sub (Cert.LibAfter.Forall.append opsL1_sub (Cert.LibAfter.Forall.append opsL2_sub opsL3_sub))

theorem ops_fresh : (ops : List (HloOp τ sig (Elt F))).Forall fun op => op.fresh = ∅ :=
  Cert.LibAfter.Forall.append opsA_fresh (Cert.LibAfter.Forall.append opsL1_fresh (Cert.LibAfter.Forall.append opsL2_fresh opsL3_fresh))

/-- The buffers after the whole program are those after the four stretches in turn. -/
theorem after_ops (V : Valuation τ sig (Elt F)) :
    after (ops (F := F)) V = after opsL3 (after opsL2 (after opsL1 (after opsA V))) := by
  unfold ops
  rw [Cert.LibAfter.after_append, Cert.LibAfter.after_append, Cert.LibAfter.after_append]

/-- Every weakly fair execution of the reference terminates, nothing faulting, with every buffer at the fold of the
    operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops (F := F)) (launchContents m d) (Proc.devRef .tc b) :=
  run_seq scopedRefs_eq scopedSems_eq defs main (fun _ => ops) main_eq (fun _ => ops_sub) m ρ
    (Cert.LibAfter.fresh_of_forall_dev fun _ => ops_fresh)

end Cert.ReferenceIdeal.RefRun

end
-- ==== Proof.RefValue.lean ====
/-
  The reference program's value: its four stretches of host operations read as the shared whole-array functions.

  From arbitrary buffer contents, the first stretch leaves the two degree normalisations; each later stretch leaves
  one dense layer of one aggregation of the previous layer's output, and writes neither the argument arrays nor the
  normalisations. Folding the four gives the result buffer as the whole network applied to the argument arrays.
-/
import proofs.«181980_j87351044866337_2_alg».proof.Proof.RefRun
import proofs.«181980_j87351044866337_2_alg».proof.Proof.Spec

set_option maxRecDepth 16384

noncomputable section

namespace Cert.ReferenceIdeal.RefValue

open Cert.ReferenceIdeal Cert.ReferenceIdeal.Gen Cert.ReferenceIdeal.RefRun Cert.Gcn
open Idealize.ShloMosaic Idealize.ShloMosaic.TcCoe Idealize.SL.Sem Idealize.ShloMosaic.StableHlo

variable {F : FTy → Type} [FloatOps F]

/-- The source-side normalisation. -/
theorem A_v9 (V : Valuation τ sig (Elt F)) :
    after opsA V (Proc.devRef .tc main_v9) = degNorm (V (Proc.devRef .tc main_arg3)) := by
  after_results_simp <;> (try simp only [StableHlo.TRef.toBuf, StableHlo.TRef.ofBuf, cast_eq]) <;> rfl

/-- The destination-side normalisation. -/
theorem A_v12 (V : Valuation τ sig (Elt F)) :
    after opsA V (Proc.devRef .tc main_v12) = degNorm (V (Proc.devRef .tc main_arg4)) := by
  after_results_simp <;> (try simp only [StableHlo.TRef.toBuf, StableHlo.TRef.ofBuf, cast_eq]) <;> rfl

/-- A buffer the stretch does not write. -/
theorem A_arg0 (V : Valuation τ sig (Elt F)) :
    after opsA V (Proc.devRef .tc main_arg0) = V (Proc.devRef .tc main_arg0) := by
  after_results_simp <;> (try simp only [StableHlo.TRef.toBuf, StableHlo.TRef.ofBuf, cast_eq]) <;> rfl

/-- A buffer the stretch does not write. -/
theorem A_arg1 (V : Valuation τ sig (Elt F)) :
    after opsA V (Proc.devRef .tc main_arg1) = V (Proc.devRef .tc main_arg1) := by
  after_results_simp <;> (try simp only [StableHlo.TRef.toBuf, StableHlo.TRef.ofBuf, cast_eq]) <;> rfl

/-- A buffer the stretch does not write. -/
theorem A_arg2 (V : Valuation τ sig (Elt F)) :
    after opsA V (Proc.devRef .tc main_arg2) = V (Proc.devRef .tc main_arg2) := by
  after_results_simp <;> (try simp only [StableHlo.TRef.toBuf, StableHlo.TRef.ofBuf, cast_eq]) <;> rfl

/-- A buffer the stretch does not write. -/
theorem A_arg3 (V : Valuation τ sig (Elt F)) :
    after opsA V (Proc.devRef .tc main_arg3) = V (Proc.devRef .tc main_arg3) := by
  after_results_simp <;> (try simp only [StableHlo.TRef.toBuf, StableHlo.TRef.ofBuf, cast_eq]) <;> rfl

/-- A buffer the stretch does not write. -/
theorem A_arg4 (V : Valuation τ sig (Elt F)) :
    after opsA V (Proc.devRef .tc main_arg4) = V (Proc.devRef .tc main_arg4) := by
  after_results_simp <;> (try simp only [StableHlo.TRef.toBuf, StableHlo.TRef.ofBuf, cast_eq]) <;> rfl

/-- Layer 1: a dense layer of the aggregation of the previous rows. -/
theorem L1_out (V : Valuation τ sig (Elt F)) :
    after opsL1 V (Proc.devRef .tc main_v37) = denseRelu (aggregate (V (Proc.devRef .tc main_arg0)) (V (Proc.devRef .tc main_arg3)) (V (Proc.devRef .tc main_arg4)) (V (Proc.devRef .tc main_v9)) (V (Proc.devRef .tc main_v12))) (weight 0 (by decide) (V (Proc.devRef .tc main_arg1))) (biasVec 0 (by decide) (V (Proc.devRef .tc main_arg2))) := by
  after_results_simp <;> (try simp only [StableHlo.TRef.toBuf, StableHlo.TRef.ofBuf, cast_eq]) <;> rfl

/-- A buffer the stretch does not write. -/
theorem L1_arg1 (V : Valuation τ sig (Elt F)) :
    after opsL1 V (Proc.devRef .tc main_arg1) = V (Proc.devRef .tc main_arg1) := by
  after_results_simp <;> (try simp only [StableHlo.TRef.toBuf, StableHlo.TRef.ofBuf, cast_eq]) <;> rfl

/-- A buffer the stretch does not write. -/
theorem L1_arg2 (V : Valuation τ sig (Elt F)) :
    after opsL1 V (Proc.devRef .tc main_arg2) = V (Proc.devRef .tc main_arg2) := by
  after_results_simp <;> (try simp only [StableHlo.TRef.toBuf, StableHlo.TRef.ofBuf, cast_eq]) <;> rfl

/-- A buffer the stretch does not write. -/
theorem L1_arg3 (V : Valuation τ sig (Elt F)) :
    after opsL1 V (Proc.devRef .tc main_arg3) = V (Proc.devRef .tc main_arg3) := by
  after_results_simp <;> (try simp only [StableHlo.TRef.toBuf, StableHlo.TRef.ofBuf, cast_eq]) <;> rfl

/-- A buffer the stretch does not write. -/
theorem L1_arg4 (V : Valuation τ sig (Elt F)) :
    after opsL1 V (Proc.devRef .tc main_arg4) = V (Proc.devRef .tc main_arg4) := by
  after_results_simp <;> (try simp only [StableHlo.TRef.toBuf, StableHlo.TRef.ofBuf, cast_eq]) <;> rfl

/-- A buffer the stretch does not write. -/
theorem L1_v9 (V : Valuation τ sig (Elt F)) :
    after opsL1 V (Proc.devRef .tc main_v9) = V (Proc.devRef .tc main_v9) := by
  after_results_simp <;> (try simp only [StableHlo.TRef.toBuf, StableHlo.TRef.ofBuf, cast_eq]) <;> rfl

/-- A buffer the stretch does not write. -/
theorem L1_v12 (V : Valuation τ sig (Elt F)) :
    after opsL1 V (Proc.devRef .tc main_v12) = V (Proc.devRef .tc main_v12) := by
  after_results_simp <;> (try simp only [StableHlo.TRef.toBuf, StableHlo.TRef.ofBuf, cast_eq]) <;> rfl

/-- Layer 2: a dense layer of the aggregation of the previous rows. -/
theorem L2_out (V : Valuation τ sig (Elt F)) :
    after opsL2 V (Proc.devRef .tc main_v62) = denseRelu (aggregate (V (Proc.devRef .tc main_v37)) (V (Proc.devRef .tc main_arg3)) (V (Proc.devRef .tc main_arg4)) (V (Proc.devRef .tc main_v9)) (V (Proc.devRef .tc main_v12))) (weight 1 (by decide) (V (Proc.devRef .tc main_arg1))) (biasVec 1 (by decide) (V (Proc.devRef .tc main_arg2))) := by
  after_results_simp <;> (try simp only [StableHlo.TRef.toBuf, StableHlo.TRef.ofBuf, cast_eq]) <;> rfl

/-- A buffer the stretch does not write. -/
theorem L2_arg1 (V : Valuation τ sig (Elt F)) :
    after opsL2 V (Proc.devRef .tc main_arg1) = V (Proc.devRef .tc main_arg1) := by
  after_results_simp <;> (try simp only [StableHlo.TRef.toBuf, StableHlo.TRef.ofBuf, cast_eq]) <;> rfl

/-- A buffer the stretch does not write. -/
theorem L2_arg2 (V : Valuation τ sig (Elt F)) :
    after opsL2 V (Proc.devRef .tc main_arg2) = V (Proc.devRef .tc main_arg2) := by
  after_results_simp <;> (try simp only [StableHlo.TRef.toBuf, StableHlo.TRef.ofBuf, cast_eq]) <;> rfl

/-- A buffer the stretch does not write. -/
theorem L2_arg3 (V : Valuation τ sig (Elt F)) :
    after opsL2 V (Proc.devRef .tc main_arg3) = V (Proc.devRef .tc main_arg3) := by
  after_results_simp <;> (try simp only [StableHlo.TRef.toBuf, StableHlo.TRef.ofBuf, cast_eq]) <;> rfl

/-- A buffer the stretch does not write. -/
theorem L2_arg4 (V : Valuation τ sig (Elt F)) :
    after opsL2 V (Proc.devRef .tc main_arg4) = V (Proc.devRef .tc main_arg4) := by
  after_results_simp <;> (try simp only [StableHlo.TRef.toBuf, StableHlo.TRef.ofBuf, cast_eq]) <;> rfl

/-- A buffer the stretch does not write. -/
theorem L2_v9 (V : Valuation τ sig (Elt F)) :
    after opsL2 V (Proc.devRef .tc main_v9) = V (Proc.devRef .tc main_v9) := by
  after_results_simp <;> (try simp only [StableHlo.TRef.toBuf, StableHlo.TRef.ofBuf, cast_eq]) <;> rfl

/-- A buffer the stretch does not write. -/
theorem L2_v12 (V : Valuation τ sig (Elt F)) :
    after opsL2 V (Proc.devRef .tc main_v12) = V (Proc.devRef .tc main_v12) := by
  after_results_simp <;> (try simp only [StableHlo.TRef.toBuf, StableHlo.TRef.ofBuf, cast_eq]) <;> rfl

/-- Layer 3: a dense layer of the aggregation of the previous rows. -/
theorem L3_out (V : Valuation τ sig (Elt F)) :
    after opsL3 V (Proc.devRef .tc main_v86) = affine (aggregate (V (Proc.devRef .tc main_v62)) (V (Proc.devRef .tc main_arg3)) (V (Proc.devRef .tc main_arg4)) (V (Proc.devRef .tc main_v9)) (V (Proc.devRef .tc main_v12))) (weight 2 (by decide) (V (Proc.devRef .tc main_arg1))) (biasVec 2 (by decide) (V (Proc.devRef .tc main_arg2))) := by
  after_results_simp <;> (try simp only [StableHlo.TRef.toBuf, StableHlo.TRef.ofBuf, cast_eq]) <;> rfl

/-- The result buffer after the whole program is the network applied to the argument arrays. -/
theorem result (V : Valuation τ sig (Elt F)) :
    after (ops (F := F)) V (Proc.devRef .tc main_v86)
      = model (V (Proc.devRef .tc main_arg0)) (V (Proc.devRef .tc main_arg1)) (V (Proc.devRef .tc main_arg2)) (V (Proc.devRef .tc main_arg3)) (V (Proc.devRef .tc main_arg4)) := by
  rw [after_ops, L3_out, L2_out, L1_out]
  rw [L2_arg1, L2_arg2, L2_arg3, L2_arg4, L2_v9, L2_v12]
  rw [L1_arg1, L1_arg2, L1_arg3, L1_arg4, L1_v9, L1_v12]
  rw [A_v9, A_v12, A_arg0, A_arg1, A_arg2, A_arg3, A_arg4]
  rfl

/-- An argument array after the whole program is as before it. -/
theorem kept (V : Valuation τ sig (Elt F)) (b : Ref sig .tc)
    (hA : after (opsA (F := F)) V (Proc.devRef .tc b) = V (Proc.devRef .tc b))
    (h1 : ∀ W : Valuation τ sig (Elt F), after (opsL1 (F := F)) W (Proc.devRef .tc b) = W (Proc.devRef .tc b))
    (h2 : ∀ W : Valuation τ sig (Elt F), after (opsL2 (F := F)) W (Proc.devRef .tc b) = W (Proc.devRef .tc b))
    (h3 : ∀ W : Valuation τ sig (Elt F), after (opsL3 (F := F)) W (Proc.devRef .tc b) = W (Proc.devRef .tc b)) :
    after (ops (F := F)) V (Proc.devRef .tc b) = V (Proc.devRef .tc b) := by
  rw [after_ops, h3, h2, h1, hA]

/-- A buffer the stretch does not write. -/
theorem L3_arg0 (V : Valuation τ sig (Elt F)) :
    after opsL3 V (Proc.devRef .tc main_arg0) = V (Proc.devRef .tc main_arg0) := by
  after_results_simp <;> (try simp only [StableHlo.TRef.toBuf, StableHlo.TRef.ofBuf, cast_eq]) <;> rfl

/-- A buffer the stretch does not write. -/
theorem L3_arg1 (V : Valuation τ sig (Elt F)) :
    after opsL3 V (Proc.devRef .tc main_arg1) = V (Proc.devRef .tc main_arg1) := by
  after_results_simp <;> (try simp only [StableHlo.TRef.toBuf, StableHlo.TRef.ofBuf, cast_eq]) <;> rfl

/-- A buffer the stretch does not write. -/
theorem L3_arg2 (V : Valuation τ sig (Elt F)) :
    after opsL3 V (Proc.devRef .tc main_arg2) = V (Proc.devRef .tc main_arg2) := by
  after_results_simp <;> (try simp only [StableHlo.TRef.toBuf, StableHlo.TRef.ofBuf, cast_eq]) <;> rfl

/-- A buffer the stretch does not write. -/
theorem L3_arg3 (V : Valuation τ sig (Elt F)) :
    after opsL3 V (Proc.devRef .tc main_arg3) = V (Proc.devRef .tc main_arg3) := by
  after_results_simp <;> (try simp only [StableHlo.TRef.toBuf, StableHlo.TRef.ofBuf, cast_eq]) <;> rfl

/-- A buffer the stretch does not write. -/
theorem L3_arg4 (V : Valuation τ sig (Elt F)) :
    after opsL3 V (Proc.devRef .tc main_arg4) = V (Proc.devRef .tc main_arg4) := by
  after_results_simp <;> (try simp only [StableHlo.TRef.toBuf, StableHlo.TRef.ofBuf, cast_eq]) <;> rfl

/-- A buffer the stretch does not write. -/
theorem L1k_arg0 (V : Valuation τ sig (Elt F)) :
    after opsL1 V (Proc.devRef .tc main_arg0) = V (Proc.devRef .tc main_arg0) := by
  after_results_simp <;> (try simp only [StableHlo.TRef.toBuf, StableHlo.TRef.ofBuf, cast_eq]) <;> rfl

/-- A buffer the stretch does not write. -/
theorem L2k_arg0 (V : Valuation τ sig (Elt F)) :
    after opsL2 V (Proc.devRef .tc main_arg0) = V (Proc.devRef .tc main_arg0) := by
  after_results_simp <;> (try simp only [StableHlo.TRef.toBuf, StableHlo.TRef.ofBuf, cast_eq]) <;> rfl

end Cert.ReferenceIdeal.RefValue

end
-- ==== Proof.lean ====
/-
  A three-layer graph convolution network over 50000 nodes and 800000 edges: the kernel program against its reference.

  Both programs compute, for each of three layers, a degree-normalised aggregation of the node rows over the edge
  list (scale, gather at the edge's source, scatter-add at its destination, scale) followed by a dense layer, the
  first two with a maximum with zero. The host operations of the two programs are the same operation for operation.
  They differ only in the dense layer: the kernel program runs it in a kernel region, 2000 rows at a time, with the
  operands narrowed to a shorter float format on the way into the matrix unit, the product accumulated into zero and
  the bias given as a row; the reference uses the host's matrix product on the whole array and repeats the bias vector
  over the rows. At the ideal values a change of float format is the identity and both products are the same sum of
  the same products of extended reals, so the two layers are one function and the two results agree entry by entry,
  with no appeal to the finiteness of the inputs.

  The three frames: the two kernel programs' frames are their generated frame certificates; the reference's is its
  run with the result dropped. No operation was rewritten by the idealisation, so there is nothing to preserve.
-/
import proofs.«181980_j87351044866337_2_alg».proof.Defs
import proofs.«181980_j87351044866337_2_alg».proof.Proof.Gen.Kernel
import proofs.«181980_j87351044866337_2_alg».proof.Proof.Gen.Kernel.Frame
import proofs.«181980_j87351044866337_2_alg».proof.Proof.Gen.KernelIdeal
import proofs.«181980_j87351044866337_2_alg».proof.Proof.Gen.KernelIdeal.Frame
import proofs.«181980_j87351044866337_2_alg».proof.Proof.Gen.ReferenceIdeal
import proofs.«181980_j87351044866337_2_alg».proof.Proof.Gen.Pre_finite_inputs
import proofs.«181980_j87351044866337_2_alg».proof.Proof.KRun
import proofs.«181980_j87351044866337_2_alg».proof.Proof.KValue
import proofs.«181980_j87351044866337_2_alg».proof.Proof.RefRun
import proofs.«181980_j87351044866337_2_alg».proof.Proof.RefValue
import Idealize.ShloMosaic.Adequacy
import Idealize.ShloMosaic.Init

noncomputable section

/-! ## The reference's arguments are never written -/

namespace Cert.ReferenceIdeal.RefValue

open Cert.ReferenceIdeal Cert.ReferenceIdeal.RefRun Idealize.ShloMosaic Idealize.ShloMosaic.StableHlo

variable {F : FTy → Type} [FloatOps F]

theorem kept_arg0 (V : Valuation τ sig (Elt F)) : after (ops (F := F)) V (Proc.devRef .tc main_arg0) = V (Proc.devRef .tc main_arg0) :=
  kept V main_arg0 (A_arg0 V) L1k_arg0 L2k_arg0 L3_arg0
theorem kept_arg1 (V : Valuation τ sig (Elt F)) : after (ops (F := F)) V (Proc.devRef .tc main_arg1) = V (Proc.devRef .tc main_arg1) :=
  kept V main_arg1 (A_arg1 V) L1_arg1 L2_arg1 L3_arg1
theorem kept_arg2 (V : Valuation τ sig (Elt F)) : after (ops (F := F)) V (Proc.devRef .tc main_arg2) = V (Proc.devRef .tc main_arg2) :=
  kept V main_arg2 (A_arg2 V) L1_arg2 L2_arg2 L3_arg2
theorem kept_arg3 (V : Valuation τ sig (Elt F)) : after (ops (F := F)) V (Proc.devRef .tc main_arg3) = V (Proc.devRef .tc main_arg3) :=
  kept V main_arg3 (A_arg3 V) L1_arg3 L2_arg3 L3_arg3
theorem kept_arg4 (V : Valuation τ sig (Elt F)) : after (ops (F := F)) V (Proc.devRef .tc main_arg4) = V (Proc.devRef .tc main_arg4) :=
  kept V main_arg4 (A_arg4 V) L1_arg4 L2_arg4 L3_arg4

end Cert.ReferenceIdeal.RefValue

/-! ## The claims -/

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, each argument read back through the fold of its operations, none of which
    writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.kept_arg0 _),
     (h c Cert.ReferenceIdeal.main_arg1).trans (Cert.ReferenceIdeal.RefValue.kept_arg1 _),
     (h c Cert.ReferenceIdeal.main_arg2).trans (Cert.ReferenceIdeal.RefValue.kept_arg2 _),
     (h c Cert.ReferenceIdeal.main_arg3).trans (Cert.ReferenceIdeal.RefValue.kept_arg3 _),
     (h c Cert.ReferenceIdeal.main_arg4).trans (Cert.ReferenceIdeal.RefValue.kept_arg4 _)⟩)
    (Cert.ReferenceIdeal.RefRun.run (F := Ideal) m ρ)

/-- The idealisation rewrote no operation. -/
theorem preserves : Cert.preserves_Kernel_KernelIdeal := trivial

/-- The network of equal arguments is equal. -/
theorem model_congr {x x' : FVec Ideal Cert.KernelIdeal.S50000x256 .f32} {W W' : FVec Ideal Cert.KernelIdeal.S3x256x256 .f32}
    {b b' : FVec Ideal Cert.KernelIdeal.S3x256 .f32} {s s' d d' : IVec Cert.KernelIdeal.S800000 32}
    (hx : x = x') (hW : W = W') (hb : b = b') (hs : s = s') (hd : d = d') :
    Cert.Gcn.model (F := Ideal) x W b s d = Cert.Gcn.model (F := Ideal) x' W' b' s' d' := by
  subst hx hW hb hs hd; rfl

/-- Both programs end with the network of the argument arrays in their result buffers: the kernel program by the
    contents followed through its boundaries, the reference by the fold of its operations; the arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v78),
    Cert.KernelIdeal.KRun.run (F := Ideal) m ρ, ?_⟩
  refine (θ_run Cert.ReferenceIdeal.defs _ _).mono (fun r h c =>
    ⟨?_,
     (h c Cert.ReferenceIdeal.main_arg0).trans (Cert.ReferenceIdeal.RefValue.kept_arg0 _),
     (h c Cert.ReferenceIdeal.main_arg1).trans (Cert.ReferenceIdeal.RefValue.kept_arg1 _),
     (h c Cert.ReferenceIdeal.main_arg2).trans (Cert.ReferenceIdeal.RefValue.kept_arg2 _),
     (h c Cert.ReferenceIdeal.main_arg3).trans (Cert.ReferenceIdeal.RefValue.kept_arg3 _),
     (h c Cert.ReferenceIdeal.main_arg4).trans (Cert.ReferenceIdeal.RefValue.kept_arg4 _)⟩)
    (Cert.ReferenceIdeal.RefRun.run (F := Ideal) m' ρ')
  obtain ⟨h0, h1, h2, h3, h4⟩ := hagree c
  refine (h c Cert.ReferenceIdeal.main_v86).trans ((Cert.ReferenceIdeal.RefValue.result _).trans ?_)
  refine Eq.trans ?_ (Cert.KernelIdeal.KValue.result m ρ c).symm
  exact model_congr h0 h1 h2 h3 h4

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
